-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S512 : Shape := ⟨1, ![512]⟩
abbrev S128x512 : Shape := ⟨2, ![128, 512]⟩
abbrev S128 : Shape := ⟨1, ![128]⟩
abbrev S1024 : Shape := ⟨1, ![1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S128 .f32) (main_arg5 : FVec F S512 .f32) (main_arg6 : FVec F S1024 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S512x1024 .f32) (main_arg1 : FVec F S512x1024 .f32) (main_arg2 : FVec F S512 .f32) (main_arg3 : FVec F S128x512 .f32) (main_arg4 : FVec F S128 .f32) (main_arg5 : FVec F S512 .f32) (main_arg6 : FVec F S1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_v13 main_v16
-- ==== Kernel.lean ====
abbrev S512x1024 : Shape := ⟨2, ![512, 1024]⟩
abbrev S512 : Shape := ⟨1, ![512]⟩
abbrev S128x512 : Shape := ⟨2, ![128, 512]⟩
abbrev S128 : Shape := ⟨1, ![128]⟩
abbrev S1024 : Shape := ⟨1, ![1024]⟩
abbrev S512x128 : Shape := ⟨2, ![512, 128]⟩
abbrev S512x512 : Shape := ⟨2, ![512, 512]⟩
abbrev S128x1024 : Shape := ⟨2, ![128, 1024]⟩
abbrev S128x128 : Shape := ⟨2, ![128, 128]⟩
abbrev S1x512 : Shape := ⟨2, ![1, 512]⟩
abbrev S1x128 : Shape := ⟨2, ![1, 128]⟩
abbrev S1x1024 : Shape := ⟨2, ![1, 1024]⟩
abbrev S512x128x1024 : Shape := ⟨3, ![512, 128, 1024]⟩
abbrev S16x512 : Shape := ⟨2, ![16, 512]⟩
abbrev S16x128 : Shape := ⟨2, ![16, 128]⟩
abbrev S16x128x1024 : Shape := ⟨3, ![16, 128, 1024]⟩
abbrev S16x128x1 : Shape := ⟨3, ![16, 128, 1]⟩
abbrev S1x128x512 : Shape := ⟨3, ![1, 128, 512]⟩
abbrev S16x128x512 : Shape := ⟨3, ![16, 128, 512]⟩
abbrev S16x1x512 : Shape := ⟨3, ![16, 1, 512]⟩
abbrev S2048x512 : Shape := ⟨2, ![2048, 512]⟩
abbrev S2048x1024 : Shape := ⟨2, ![2048, 1024]⟩

abbrev nBuf : Space → Nat
  | .hbm => 13
  | .vmem => 24
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S512, .f32⟩
  | .hbm, ⟨6, _⟩ => ⟨S1024, .f32⟩
  | .hbm, ⟨7, _⟩ => ⟨S512x1024, .f32⟩
  | .hbm, ⟨8, _⟩ => ⟨S512x128, .f32⟩
  | .hbm, ⟨9, _⟩ => ⟨S512x512, .f32⟩
  | .hbm, ⟨10, _⟩ => ⟨S512x128, .f32⟩
  | .hbm, ⟨11, _⟩ => ⟨S512x1024, .bf16⟩
  | .hbm, ⟨12, _⟩ => ⟨S512x128x1024, .f32⟩
  | .local _ .vmem, ⟨0, _⟩ => ⟨S128x1024, .f32⟩
  | .local _ .vmem, ⟨1, _⟩ => ⟨S128x1024, .f32⟩
  | .local _ .vmem, ⟨2, _⟩ => ⟨S512x1024, .f32⟩
  | .local _ .vmem, ⟨3, _⟩ => ⟨S512, .f32⟩
  | .local _ .vmem, ⟨4, _⟩ => ⟨S128x512, .f32⟩
  | .local _ .vmem, ⟨5, _⟩ => ⟨S128, .f32⟩
  | .local _ .vmem, ⟨6, _⟩ => ⟨S512, .f32⟩
  | .local _ .vmem, ⟨7, _⟩ => ⟨S1024, .f32⟩
  | .local _ .vmem, ⟨8, _⟩ => ⟨S128x1024, .f32⟩
  | .local _ .vmem, ⟨9, _⟩ => ⟨S128x1024, .f32⟩
  | .local _ .vmem, ⟨10, _⟩ => ⟨S128x128, .f32⟩
  | .local _ .vmem, ⟨11, _⟩ => ⟨S128x128, .f32⟩
  | .local _ .vmem, ⟨12, _⟩ => ⟨S128x512, .f32⟩
  | .local _ .vmem, ⟨13, _⟩ => ⟨S128x512, .f32⟩
  | .local _ .vmem, ⟨14, _⟩ => ⟨S128x128, .f32⟩
  | .local _ .vmem, ⟨15, _⟩ => ⟨S128x128, .f32⟩
  | .local _ .vmem, ⟨16, _⟩ => ⟨S16x512, .f32⟩
  | .local _ .vmem, ⟨17, _⟩ => ⟨S16x512, .f32⟩
  | .local _ .vmem, ⟨18, _⟩ => ⟨S16x128, .f32⟩
  | .local _ .vmem, ⟨19, _⟩ => ⟨S16x128, .f32⟩
  | .local _ .vmem, ⟨20, _⟩ => ⟨S128x512, .f32⟩
  | .local _ .vmem, ⟨21, _⟩ => ⟨S512x1024, .bf16⟩
  | .local _ .vmem, ⟨22, _⟩ => ⟨S16x128x1024, .f32⟩
  | .local _ .vmem, ⟨23, _⟩ => ⟨S16x128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S128x1024_S128x1024_0_0 : ∀ a, (![0, 0] : Fin 2 → Nat) a + S128x1024.size a ≤ S128x1024.size a
  h_S128x1024 : 0 < S128x1024.numel
  inb_S512x1024_S512x1024_0_0 : ∀ a, (![0, 0] : Fin 2 → Nat) a + S512x1024.size a ≤ S512x1024.size a
  h_S512x1024 : 0 < S512x1024.numel
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S16x128x1 : S16x128.ShapeCasts S16x128x1
  shapeCasts_S128x512_S1x128x512 : S128x512.ShapeCasts S1x128x512
  broadcasts_S16x128x1_S16x128x512 : S16x128x1.Broadcasts S16x128x512
  broadcasts_S1x128x512_S16x128x512 : S1x128x512.Broadcasts S16x128x512
  shapeCasts_S16x512_S16x1x512 : S16x512.ShapeCasts S16x1x512
  broadcasts_S16x1x512_S16x128x512 : S16x1x512.Broadcasts S16x128x512
  shapeCasts_S16x128x512_S2048x512 : S16x128x512.ShapeCasts S2048x512
  shapeCasts_S512x1024_S512x1024 : S512x1024.ShapeCasts S512x1024
  shapeCasts_S2048x1024_S16x128x1024 : S2048x1024.ShapeCasts S16x128x1024
  inb_S16x128x1024_S16x128x1024_0_0_0 : ∀ a, (![0, 0, 0] : Fin 3 → Nat) a + S16x128x1024.size a ≤ S16x128x1024.size a
  h_S16x128x1024 : 0 < S16x128x1024.numel
  dot_S128x1024_S512x1024_S128x512_1_1_0_0_n_n_wf : DotDims.WF S128x1024 S512x1024 S128x512 [1] [1] [0] [0] [] []
  dot_S128x512_S128x512_S128x128_1_1_0_0_n_n_wf : DotDims.WF S128x512 S128x512 S128x128 [1] [1] [0] [0] [] []
  dot_S128x128_S128x512_S128x512_1_0_0_1_n_n_wf : DotDims.WF S128x128 S128x512 S128x512 [1] [0] [0] [1] [] []
  dot_S128x512_S512x1024_S128x1024_1_0_0_1_n_n_wf : DotDims.WF S128x512 S512x1024 S128x1024 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S512x1024.size a
  hwx0_7 : ∀ i : grid0.Coords, EltTy.bits .f32 = 32 ∨ (Rect.block (s := S512x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S512x128.size a
  hwx0_8 : ∀ i : grid0.Coords, EltTy.bits .f32 = 32 ∨ (Rect.block (s := S512x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S512x512.size a
  hwx0_9 : ∀ i : grid0.Coords, EltTy.bits .f32 = 32 ∨ (Rect.block (s := S512x512) S128x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S512x128.size a
  hwx0_10 : ∀ i : grid0.Coords, EltTy.bits .f32 = 32 ∨ (Rect.block (s := S512x128) S128x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S512x512.size a
  hwx1_0 : ∀ i : grid1.Coords, EltTy.bits .f32 = 32 ∨ (Rect.block (s := S512x512) S16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S512x128.size a
  hwx1_1 : ∀ i : grid1.Coords, EltTy.bits .f32 = 32 ∨ (Rect.block (s := S512x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S512x1024.size a
  hwx1_3 : ∀ i : grid1.Coords, EltTy.bits .bf16 = 32 ∨ (Rect.block (s := S512x1024) S512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x128x1024.size a ≤ S512x128x1024.size a
  hwx1_4 : ∀ i : grid1.Coords, EltTy.bits .f32 = 32 ∨ (Rect.block (s := S512x128x1024) S16x128x1024.size (cc1_transform_4 i) (hinb1_4 i)).WholeWords (EltTy.packing .f32)

variable [Facts₀]

def dot_S128x1024_S512x1024_S128x512_1_1_0_0_n_n : DotDims S128x1024 S512x1024 S128x512 where
  lhsContracting := [1]
  rhsContracting := [1]
  lhsNonContracting := [0]
  rhsNonContracting := [0]
  lhsBatch := []
  rhsBatch := []
  wf := dot_S128x1024_S512x1024_S128x512_1_1_0_0_n_n_wf
def dot_S128x512_S128x512_S128x128_1_1_0_0_n_n : DotDims S128x512 S128x512 S128x128 where
  lhsContracting := [1]
  rhsContracting := [1]
  lhsNonContracting := [0]
  rhsNonContracting := [0]
  lhsBatch := []
  rhsBatch := []
  wf := dot_S128x512_S128x512_S128x128_1_1_0_0_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S128x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S128x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_3) S128x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v0_2) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_3) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S16x128x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x1024 : Shape := ⟨2, ![512, 1024]⟩
abbrev S512 : Shape := ⟨1, ![512]⟩
abbrev S128x512 : Shape := ⟨2, ![128, 512]⟩
abbrev S128 : Shape := ⟨1, ![128]⟩
abbrev S1024 : Shape := ⟨1, ![1024]⟩
abbrev S1024x512 : Shape := ⟨2, ![1024, 512]⟩
abbrev S512x512 : Shape := ⟨2, ![512, 512]⟩
abbrev S1x512 : Shape := ⟨2, ![1, 512]⟩
abbrev S_ : Shape := ⟨0, ![]⟩
abbrev S512x128 : Shape := ⟨2, ![512, 128]⟩
abbrev S1x128 : Shape := ⟨2, ![1, 128]⟩
abbrev S1x1024 : Shape := ⟨2, ![1, 1024]⟩
abbrev S512x128x1 : Shape := ⟨3, ![512, 128, 1]⟩
abbrev S1x128x512 : Shape := ⟨3, ![1, 128, 512]⟩
abbrev S512x128x512 : Shape := ⟨3, ![512, 128, 512]⟩
abbrev S512x1x512 : Shape := ⟨3, ![512, 1, 512]⟩
abbrev S512x128x1024 : Shape := ⟨3, ![512, 128, 1024]⟩

abbrev nBuf : Space → Nat
  | .hbm => 66
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S512, .f32⟩
  | .hbm, ⟨6, _⟩ => ⟨S1024, .f32⟩
  | .hbm, ⟨7, _⟩ => ⟨S1024x512, .f32⟩
  | .hbm, ⟨8, _⟩ => ⟨S512x512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x128, .f32⟩
  | .hbm, ⟨21, _⟩ => ⟨S512x128, .f32⟩
  | .hbm, ⟨22, _⟩ => ⟨S1x128, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x512, .f32⟩
  | .hbm, ⟨34, _⟩ => ⟨S1x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x1024, .f32⟩
  | .hbm, ⟨46, _⟩ => ⟨S1x1024, .f32⟩
  | .hbm, ⟨47, _⟩ => ⟨S512x1024, .f32⟩
  | .hbm, ⟨48, _⟩ => ⟨S512x1024, .f32⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512x128, .f32⟩
  | .hbm, ⟨55, _⟩ => ⟨S512x128, .f32⟩
  | .hbm, ⟨56, _⟩ => ⟨S512x128, .f32⟩
  | .hbm, ⟨57, _⟩ => ⟨S512x128x1, .f32⟩
  | .hbm, ⟨58, _⟩ => ⟨S1x128x512, .f32⟩
  | .hbm, ⟨59, _⟩ => ⟨S512x128x512, .f32⟩
  | .hbm, ⟨60, _⟩ => ⟨S512x128x512, .f32⟩
  | .hbm, ⟨61, _⟩ => ⟨S512x128x512, .f32⟩
  | .hbm, ⟨62, _⟩ => ⟨S512x1x512, .f32⟩
  | .hbm, ⟨63, _⟩ => ⟨S512x128x512, .f32⟩
  | .hbm, ⟨64, _⟩ => ⟨S512x128x512, .f32⟩
  | .hbm, ⟨65, _⟩ => ⟨S512x128x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S128x512_S512x128_1_0 : S128x512.Transposes [1, 0] S512x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S512x128_S512x128x1_0_1 : S512x128.BroadcastsInDim S512x128x1 (![0, 1] : Fin 2 → Fin S512x128x1.rank)
  bcast_S128x512_S1x128x512_1_2 : S128x512.BroadcastsInDim S1x128x512 (![1, 2] : Fin 2 → Fin S1x128x512.rank)
  bcast_S512x128x1_S512x128x512_0_1_2 : S512x128x1.BroadcastsInDim S512x128x512 (![0, 1, 2] : Fin 3 → Fin S512x128x512.rank)
  bcast_S1x128x512_S512x128x512_0_1_2 : S1x128x512.BroadcastsInDim S512x128x512 (![0, 1, 2] : Fin 3 → Fin S512x128x512.rank)
  bcast_S512x512_S512x1x512_0_2 : S512x512.BroadcastsInDim S512x1x512 (![0, 2] : Fin 2 → Fin S512x1x512.rank)
  bcast_S512x1x512_S512x128x512_0_1_2 : S512x1x512.BroadcastsInDim S512x128x512 (![0, 1, 2] : Fin 3 → Fin S512x128x512.rank)
  dot_S512x1024_S1024x512_S512x512_1_0_0_1_n_n_wf : DotDims.WF S512x1024 S1024x512 S512x512 [1] [0] [0] [1] [] []
  dot_S512x512_S512x128_S512x128_1_0_0_1_n_n_wf : DotDims.WF S512x512 S512x128 S512x128 [1] [0] [0] [1] [] []
  dot_S512x128_S128x512_S512x512_1_0_0_1_n_n_wf : DotDims.WF S512x128 S128x512 S512x512 [1] [0] [0] [1] [] []
  dot_S512x512_S512x1024_S512x1024_1_0_0_1_n_n_wf : DotDims.WF S512x512 S512x1024 S512x1024 [1] [0] [0] [1] [] []
  dot_S512x128x512_S512x1024_S512x128x1024_2_0_01_1_n_n_wf : DotDims.WF S512x128x512 S512x1024 S512x128x1024 [2] [0] [0, 1] [1] [] []

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x128x512_S512x1024_S512x128x1024_2_0_01_1_n_n : DotDims S512x128x512 S512x1024 S512x128x1024 where
  lhsContracting := [2]
  rhsContracting := [0]
  lhsNonContracting := [0, 1]
  rhsNonContracting := [1]
  lhsBatch := []
  rhsBatch := []
  wf := dot_S512x128x512_S512x1024_S512x128x1024_2_0_01_1_n_n_wf

class Facts : Prop extends Facts₀ where

variable [Facts]
-- ==== Proof.KernelRun.lean ====
/-
  The idealized kernel's run with its three results NAMED.

  @main is two pipelined regions with one host conversion between them. The buffer contents at the last segment
  boundary are a fold through @main from the launch memory (the contents `W3`): every weakly fair execution terminates
  without a fault, and in the final state every unscoped buffer of the TensorCore holds `W3` at that buffer — in
  particular the three result buffers, which is what a statement about VALUES needs beside the unchanged arguments.
-/
import proofs.«164810_j23785528885730_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each result buffer at the last boundary's
    contents and every argument as launched. -/
theorem run_named : θ_run defs (onTc (τ := τ) (main (F := F))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v0_1) = W3 m ρ c (Proc.devRef .tc main_v0_1)
      ∧ r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0_0 (by decide)),
       h c _ (mem_uc main_v0_1 (by decide)),
       h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-! ## The last boundary's contents at the result buffers, walked back through @main -/

/-- No operation of the host stretch writes `b`, when `b` is not the converted copy of the first weight matrix. -/
theorem W2_of_ne (c : Dev nD) (b : Ref sig .tc) (hb : main_v1 ≠ b) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne (fun e => hb e.symm)))

/-- The reconstruction's buffer ends at what the first region's write-backs leave of output window 7. -/
theorem W3_recon (c : Dev nD) : W3 m ρ c (Proc.devRef .tc main_v0_0) = (dat0 (V0 m ρ) c).arrAt 7 cfg0.N :=
  calc W3 m ρ c (Proc.devRef .tc main_v0_0)
    _ = W2 m ρ c (Proc.devRef .tc main_v0_0) := W3_of_ne m ρ c main_v0_0 (by decide)
    _ = W1 m ρ c (Proc.devRef .tc main_v0_0) := W2_of_ne m ρ c main_v0_0 (by decide)
    _ = _ := W1_arr m ρ c 7

/-- The code's buffer ends at what the first region's write-backs leave of output window 8. -/
theorem W3_code (c : Dev nD) : W3 m ρ c (Proc.devRef .tc main_v0_1) = (dat0 (V0 m ρ) c).arrAt 8 cfg0.N :=
  calc W3 m ρ c (Proc.devRef .tc main_v0_1)
    _ = W2 m ρ c (Proc.devRef .tc main_v0_1) := W3_of_ne m ρ c main_v0_1 (by decide)
    _ = W1 m ρ c (Proc.devRef .tc main_v0_1) := W2_of_ne m ρ c main_v0_1 (by decide)
    _ = _ := W1_arr m ρ c 8

/-- The Jacobian's buffer ends at what the second region's write-backs leave of its output window. -/
theorem W3_jac (c : Dev nD) : W3 m ρ c (Proc.devRef .tc main_v2) = (dat1 (V2 m ρ) c).arrAt 4 cfg1.N :=
  W3_arr m ρ c 4

/-- The second region finds the two slope arrays as the first region left them, -/
theorem V2_slope1 (c : Dev nD) : V2 m ρ c main_v0_2 = (dat0 (V0 m ρ) c).arrAt 9 cfg0.N :=
  (W2_of_ne m ρ c main_v0_2 (by decide)).trans (W1_arr m ρ c 9)
theorem V2_slope2 (c : Dev nD) : V2 m ρ c main_v0_3 = (dat0 (V0 m ρ) c).arrAt 10 cfg0.N :=
  (W2_of_ne m ρ c main_v0_3 (by decide)).trans (W1_arr m ρ c 10)

/-- the second weight matrix as launched, -/
theorem V2_W2 (c : Dev nD) : V2 m ρ c main_arg3 = m ((c : Thread nD τ).loc main_arg3) :=
  (W2_of_ne m ρ c main_arg3 (by decide)).trans
    ((W1_arr m ρ c 3).trans (((dat0 (V0 m ρ) c).arrAt_in 3 rfl _).trans (A_eq0 (V0 m ρ) c 3)))

/-- and the converted copy of the first weight matrix at the conversion of the launched one. -/
theorem V2_W1 (c : Dev nD) :
    V2 m ρ c main_v1 = truncf .bf16 (m ((c : Thread nD τ).loc main_arg1)) bitsLt_bf16_f32 := by
  have e1 : W1 m ρ c (Proc.devRef .tc main_arg1) = m ((c : Thread nD τ).loc main_arg1) :=
    (W1_arr m ρ c 1).trans (((dat0 (V0 m ρ) c).arrAt_in 1 rfl _).trans (A_eq0 (V0 m ρ) c 1))
  rw [← e1]
  show StableHlo.after hostOps1 (W1 m ρ c) (Proc.devRef .tc main_v1) = _
  generalize W1 m ρ c = W
  after_results

end Cert.KernelIdeal.RunValue

end
-- ==== Proof.Spec.lean ====
/-
  The mathematics both programs compute, over the extended reals.

  A two-layer sigmoid auto-encoder with tied weights, and the Jacobian of its code with respect to its input:
    c1  = σ(x · W1ᵀ + b1)            [512, 512]
    c2  = σ(c1 · W2ᵀ + b2)           [512, 128]   (the code)
    c3  = σ(c2 · W2 + b3)            [512, 512]
    rec = c3 · W1 + b_r              [512, 1024]  (the reconstruction)
    Jac[b, h, d] = Σ_k (σ'(c2)[b, h] · W2[h, k] · σ'(c1)[b, k]) · W1[k, d]      [512, 128, 1024]
  where σ z = 1 / (1 + e^(-z)) and σ'(c) = c · (1 - c) is its derivative written in terms of its value.
  Every matrix product is a finite sum of products of extended reals, entry by entry; nothing here depends on the order
  in which a sum is taken, on how rows are grouped into blocks, or on a change of float format.
-/
import Idealize.ShloMosaic.PureOps.Ideal
import Idealize.ShloMosaic.PureOps.Ideal.Laws
import Idealize.ShloMosaic.Lib.ValueIdx

noncomputable section

namespace Cert.Cae

open Idealize.ShloMosaic Idealize.ShloMosaic.ValueIdx

/-- Arrays of extended reals over literal extents. -/
abbrev Arr1 (n : Nat) : Type := (⟨1, ![n]⟩ : Shape).Idx → EReal
abbrev Arr2 (r c : Nat) : Type := (⟨2, ![r, c]⟩ : Shape).Idx → EReal
abbrev Arr3 (a b c : Nat) : Type := (⟨3, ![a, b, c]⟩ : Shape).Idx → EReal

/-- The float literal 1.0, as both programs spell it. -/
def one : EReal := Ideal.ofBits .f32 0x3F800000#32

/-- The literal 1.0 denotes the number one. -/
theorem one_eq : one = 1 := by
  unfold one
  simp [Ideal.ofBits, Ideal.ieee, -EReal.coe_mul]
  norm_num

/-- A sigmoid layer whose weight matrix is stored OUTPUT-major (contracting the last axis of both operands):
    entry (r, q) is σ(Σ_k a[r, k] · W[q, k] + b[q]). -/
def layerT {R K Q : Nat} (a : Arr2 R K) (W : Arr2 Q K) (b : Arr1 Q) : Arr2 R Q :=
  fun i => Ideal.logistic ((∑ k : Fin K, a (ix2 (i 0) k) * W (ix2 (i 1) k)) + b (ix1 (i 1)))

/-- An affine layer whose weight matrix is stored INPUT-major: entry (r, q) is Σ_k a[r, k] · W[k, q] + b[q]. -/
def affine {R K Q : Nat} (a : Arr2 R K) (W : Arr2 K Q) (b : Arr1 Q) : Arr2 R Q :=
  fun i => (∑ k : Fin K, a (ix2 (i 0) k) * W (ix2 k (i 1))) + b (ix1 (i 1))

/-- The sigmoid of an array, entry by entry. -/
def sig {s : Shape} (z : s.Idx → EReal) : s.Idx → EReal := fun i => Ideal.logistic (z i)

/-- The sigmoid's derivative in terms of its value, entry by entry: c · (1 - c). -/
def dsig {s : Shape} (c : s.Idx → EReal) : s.Idx → EReal := fun i => c i * (one - c i)

/-- The per-sample Jacobian: entry (b, h, d) is Σ_k ((s2[b, h] · W2[h, k]) · s1[b, k]) · W1[k, d]. -/
def jac {B H K D : Nat} (s2 : Arr2 B H) (W2 : Arr2 H K) (s1 : Arr2 B K) (W1 : Arr2 K D) : Arr3 B H D :=
  fun i => ∑ k : Fin K, ((s2 (ix2 (i 0) (i 1)) * W2 (ix2 (i 1) k)) * s1 (ix2 (i 0) k)) * W1 (ix2 k (i 2))

theorem layerT_apply {R K Q : Nat} (a : Arr2 R K) (W : Arr2 Q K) (b : Arr1 Q) (r : Fin R) (q : Fin Q) :
    layerT a W b (ix2 r q) = Ideal.logistic ((∑ k : Fin K, a (ix2 r k) * W (ix2 q k)) + b (ix1 q)) := rfl

theorem affine_apply {R K Q : Nat} (a : Arr2 R K) (W : Arr2 K Q) (b : Arr1 Q) (r : Fin R) (q : Fin Q) :
    affine a W b (ix2 r q) = (∑ k : Fin K, a (ix2 r k) * W (ix2 k q)) + b (ix1 q) := rfl

theorem jac_apply {B H K D : Nat} (s2 : Arr2 B H) (W2 : Arr2 H K) (s1 : Arr2 B K) (W1 : Arr2 K D)
    (b : Fin B) (h : Fin H) (d : Fin D) :
    jac s2 W2 s1 W1 (ix3 b h d) = ∑ k : Fin K, ((s2 (ix2 b h) * W2 (ix2 h k)) * s1 (ix2 b k)) * W1 (ix2 k d) := rfl

/-! ## The network -/

section Net

variable (x W1 : Arr2 512 1024) (b1 : Arr1 512) (W2 : Arr2 128 512) (b2 : Arr1 128) (b3 : Arr1 512) (br : Arr1 1024)

/-- First hidden layer, c1 = σ(x · W1ᵀ + b1). -/
def hid1 : Arr2 512 512 := layerT x W1 b1
/-- The code, c2 = σ(c1 · W2ᵀ + b2). -/
def code : Arr2 512 128 := layerT (hid1 x W1 b1) W2 b2
/-- First decoder layer, c3 = σ(c2 · W2 + b3). -/
def hid3 : Arr2 512 512 := sig (affine (code x W1 b1 W2 b2) W2 b3)
/-- The reconstruction, c3 · W1 + b_r. -/
def recon : Arr2 512 1024 := affine (hid3 x W1 b1 W2 b2 b3) W1 br
/-- σ'(c1) and σ'(c2). -/
def slope1 : Arr2 512 512 := dsig (hid1 x W1 b1)
def slope2 : Arr2 512 128 := dsig (code x W1 b1 W2 b2)
/-- The Jacobian of the code with respect to the input, sample by sample. -/
def jacobian : Arr3 512 128 1024 := jac (slope2 x W1 b1 W2 b2) W2 (slope1 x W1 b1) W1

end Net

end Cert.Cae

end
-- ==== Proof.SpecRows.lean ====
/-
  The network acts row by row: sample `r` of every layer depends on sample `r` of the input only. So the network
  applied to a block of rows of the input is the same block of rows of the network applied to the whole input —
  which is why computing it one batch tile at a time changes nothing.
-/
import proofs.«164810_j23785528885730_2_alg».proof.Proof.Spec

noncomputable section

namespace Cert.Cae

open Idealize.ShloMosaic Idealize.ShloMosaic.ValueIdx

variable {R R' K Q : Nat}

/-- If `a` is `a'` with its rows picked by `f`, a sigmoid layer of `a` is that layer of `a'` with its rows picked by `f`. -/
theorem layerT_rows (a : Arr2 R K) (a' : Arr2 R' K) (f : Fin R → Fin R')
    (h : ∀ p k, a (ix2 p k) = a' (ix2 (f p) k)) (W : Arr2 Q K) (b : Arr1 Q) (p : Fin R) (q : Fin Q) :
    layerT a W b (ix2 p q) = layerT a' W b (ix2 (f p) q) := by
  rw [layerT_apply, layerT_apply]
  simp only [h]

/-- The same for an affine layer. -/
theorem affine_rows (a : Arr2 R K) (a' : Arr2 R' K) (f : Fin R → Fin R')
    (h : ∀ p k, a (ix2 p k) = a' (ix2 (f p) k)) (W : Arr2 K Q) (b : Arr1 Q) (p : Fin R) (q : Fin Q) :
    affine a W b (ix2 p q) = affine a' W b (ix2 (f p) q) := by
  rw [affine_apply, affine_apply]
  simp only [h]

/-- The same for an entrywise sigmoid and for its derivative. -/
theorem sig_rows (a : Arr2 R K) (a' : Arr2 R' K) (f : Fin R → Fin R')
    (h : ∀ p k, a (ix2 p k) = a' (ix2 (f p) k)) (p : Fin R) (k : Fin K) :
    sig a (ix2 p k) = sig a' (ix2 (f p) k) := by
  unfold sig; rw [h]

theorem dsig_rows (a : Arr2 R K) (a' : Arr2 R' K) (f : Fin R → Fin R')
    (h : ∀ p k, a (ix2 p k) = a' (ix2 (f p) k)) (p : Fin R) (k : Fin K) :
    dsig a (ix2 p k) = dsig a' (ix2 (f p) k) := by
  unfold dsig; rw [h]

section Net

variable (xb : Arr2 R 1024) (x W1 : Arr2 512 1024) (b1 : Arr1 512) (W2 : Arr2 128 512) (b2 : Arr1 128) (b3 : Arr1 512)
  (br : Arr1 1024) (f : Fin R → Fin 512) (h : ∀ p k, xb (ix2 p k) = x (ix2 (f p) k))

include h

/-- The first hidden layer of a block of samples is that block of the first hidden layer. -/
theorem hid1_rows (p : Fin R) (q : Fin 512) : layerT xb W1 b1 (ix2 p q) = hid1 x W1 b1 (ix2 (f p) q) :=
  layerT_rows xb x f h W1 b1 p q

/-- The code of a block of samples is that block of the code. -/
theorem code_rows (p : Fin R) (q : Fin 128) :
    layerT (layerT xb W1 b1) W2 b2 (ix2 p q) = code x W1 b1 W2 b2 (ix2 (f p) q) :=
  layerT_rows _ _ f (hid1_rows xb x W1 b1 f h) W2 b2 p q

/-- The slopes of a block of samples are that block of the slopes. -/
theorem slope1_rows (p : Fin R) (q : Fin 512) :
    dsig (layerT xb W1 b1) (ix2 p q) = slope1 x W1 b1 (ix2 (f p) q) :=
  dsig_rows _ _ f (hid1_rows xb x W1 b1 f h) p q

theorem slope2_rows (p : Fin R) (q : Fin 128) :
    dsig (layerT (layerT xb W1 b1) W2 b2) (ix2 p q) = slope2 x W1 b1 W2 b2 (ix2 (f p) q) :=
  dsig_rows _ _ f (code_rows xb x W1 b1 W2 b2 f h) p q

/-- The reconstruction of a block of samples is that block of the reconstruction. -/
theorem recon_rows (p : Fin R) (q : Fin 1024) :
    affine (sig (affine (layerT (layerT xb W1 b1) W2 b2) W2 b3)) W1 br (ix2 p q)
      = recon x W1 b1 W2 b2 b3 br (ix2 (f p) q) :=
  affine_rows _ _ f (sig_rows _ _ f (affine_rows _ _ f (code_rows xb x W1 b1 W2 b2 f h) W2 b3)) W1 br p q

end Net

/-! ## A block of consecutive rows, with indices given by their coordinates -/

/-- The row `R0 + p` of a 512-row array. -/
abbrev rowAt {R : Nat} (R0 : Nat) (hR : R0 + R ≤ 512) : Fin R → Fin 512 :=
  fun p => ⟨R0 + p.val, by have := p.isLt; omega⟩

/-- If `g` is rows `R0 … R0 + R − 1` of `G`, then `g` at an index is `G` at the index `R0` rows further down. -/
theorem block_of_rows {R C : Nat} (R0 : Nat) (hR : R0 + R ≤ 512) (g : Arr2 R C) (G : Arr2 512 C)
    (hg : ∀ (p : Fin R) (q : Fin C), g (ix2 p q) = G (ix2 (rowAt R0 hR p) q))
    (j : (⟨2, ![R, C]⟩ : Shape).Idx) (i : (⟨2, ![512, C]⟩ : Shape).Idx)
    (h0 : (i 0).val = R0 + (j 0).val) (h1 : (i 1).val = (j 1).val) : g j = G i := by
  have ei : i = ix2 (rowAt R0 hR (j 0)) (j 1) := by
    funext a
    match a with
    | ⟨0, _⟩ => exact Fin.ext h0
    | ⟨1, _⟩ => exact Fin.ext h1
  exact (congrArg g (eq_ix2 j)).trans ((hg (j 0) (j 1)).trans (congrArg G ei.symm))

section Blocks

variable {R : Nat} (R0 : Nat) (hR : R0 + R ≤ 512)
  (xb : Arr2 R 1024) (x W1 : Arr2 512 1024) (b1 : Arr1 512) (W2 : Arr2 128 512) (b2 : Arr1 128) (b3 : Arr1 512)
  (br : Arr1 1024) (hx : ∀ (p : Fin R) (k : Fin 1024), xb (ix2 p k) = x (ix2 (rowAt R0 hR p) k))

include hx

theorem recon_block (j : (⟨2, ![R, 1024]⟩ : Shape).Idx) (i : (⟨2, ![512, 1024]⟩ : Shape).Idx)
    (h0 : (i 0).val = R0 + (j 0).val) (h1 : (i 1).val = (j 1).val) :
    affine (sig (affine (layerT (layerT xb W1 b1) W2 b2) W2 b3)) W1 br j = recon x W1 b1 W2 b2 b3 br i :=
  block_of_rows R0 hR _ _ (recon_rows xb x W1 b1 W2 b2 b3 br (rowAt R0 hR) hx) j i h0 h1

theorem code_block (j : (⟨2, ![R, 128]⟩ : Shape).Idx) (i : (⟨2, ![512, 128]⟩ : Shape).Idx)
    (h0 : (i 0).val = R0 + (j 0).val) (h1 : (i 1).val = (j 1).val) :
    layerT (layerT xb W1 b1) W2 b2 j = code x W1 b1 W2 b2 i :=
  block_of_rows R0 hR _ _ (code_rows xb x W1 b1 W2 b2 (rowAt R0 hR) hx) j i h0 h1

theorem slope1_block (j : (⟨2, ![R, 512]⟩ : Shape).Idx) (i : (⟨2, ![512, 512]⟩ : Shape).Idx)
    (h0 : (i 0).val = R0 + (j 0).val) (h1 : (i 1).val = (j 1).val) :
    dsig (layerT xb W1 b1) j = slope1 x W1 b1 i :=
  block_of_rows R0 hR _ _ (slope1_rows xb x W1 b1 (rowAt R0 hR) hx) j i h0 h1

theorem slope2_block (j : (⟨2, ![R, 128]⟩ : Shape).Idx) (i : (⟨2, ![512, 128]⟩ : Shape).Idx)
    (h0 : (i 0).val = R0 + (j 0).val) (h1 : (i 1).val = (j 1).val) :
    dsig (layerT (layerT xb W1 b1) W2 b2) j = slope2 x W1 b1 W2 b2 i :=
  block_of_rows R0 hR _ _ (slope2_rows xb x W1 b1 W2 b2 (rowAt R0 hR) hx) j i h0 h1

end Blocks

end Cert.Cae

end
-- ==== Proof.MlpBlock.lean ====
/-
  The first region's body, one batch tile of 128 samples at a time, is the network itself applied to that tile.

  Each of its four matrix products, accumulated into zero, is a plain finite sum of products over the contracted
  axis; a bias vector reshaped to one row and repeated down the rows adds `b[q]` to column `q`; the sigmoid is applied
  entry by entry; the slope is `c · (1 − c)` entry by entry. Reading the body's five stored or returned values with
  these facts gives the layers of the specification over an array of 128 rows.
-/
import proofs.«164810_j23785528885730_2_alg».proof.Proof.Spec
import proofs.«164810_j23785528885730_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.MlpValue

open Cert.KernelIdeal Cert.KernelIdeal.Gen Idealize.ShloMosaic Idealize.ShloMosaic.ValueIdx

/-! ## The four matrix products, each as a sum over its contracted axis -/

/-- x-tile · W1ᵀ: both operands contract their last axis. -/
theorem mm_xW1_l (i : S128x512.Idx) (c : dot_S128x1024_S512x1024_S128x512_1_1_0_0_n_n.contr.Idx) : (dot_S128x1024_S512x1024_S128x512_1_1_0_0_n_n.lhsIdx i c 0).val = (i 0).val := by
  unfold DotDims.lhsIdx
  rw [dif_neg (show ¬(0 : Fin S128x1024.rank) ∈ dot_S128x1024_S512x1024_S128x512_1_1_0_0_n_n.lhsBatch by decide), dif_pos (show (0 : Fin S128x1024.rank) ∈ dot_S128x1024_S512x1024_S128x512_1_1_0_0_n_n.lhsNonContracting by decide)]
  rfl
theorem mm_xW1_r (i : S128x512.Idx) (c : dot_S128x1024_S512x1024_S128x512_1_1_0_0_n_n.contr.Idx) : (dot_S128x1024_S512x1024_S128x512_1_1_0_0_n_n.rhsIdx i c 0).val = (i 1).val := by
  unfold DotDims.rhsIdx
  rw [dif_neg (show ¬(0 : Fin S512x1024.rank) ∈ dot_S128x1024_S512x1024_S128x512_1_1_0_0_n_n.rhsBatch by decide), dif_pos (show (0 : Fin S512x1024.rank) ∈ dot_S128x1024_S512x1024_S128x512_1_1_0_0_n_n.rhsNonContracting by decide)]
  rfl
theorem mm_xW1 (a : FVec Ideal S128x1024 .f32) (b : FVec Ideal S512x1024 .f32) (p : Fin 128) (q : Fin 512) :
    matmul dot_S128x1024_S512x1024_S128x512_1_1_0_0_n_n (some .fp32) a b (constant S128x512 .f32 0x00000000#32) (ix2 p q)
      = ∑ k : Fin 1024, a (ix2 p k) * b (ix2 q k) := by
  simp only [matmul]
  rw [Ideal.matmul_constant_zero_apply, ← Equiv.sum_comp (contrEquiv1 dot_S128x1024_S512x1024_S128x512_1_1_0_0_n_n 1024 rfl rfl).symm]
  refine Finset.sum_congr rfl fun k _ => ?_
  have hk := contrEquiv1_symm_val dot_S128x1024_S512x1024_S128x512_1_1_0_0_n_n 1024 rfl rfl k
  have el : dot_S128x1024_S512x1024_S128x512_1_1_0_0_n_n.lhsIdx (ix2 p q) ((contrEquiv1 dot_S128x1024_S512x1024_S128x512_1_1_0_0_n_n 1024 rfl rfl).symm k) = ix2 p k := funext fun ax => Fin.ext (by
    match ax with
    | ⟨0, _⟩ => exact mm_xW1_l _ _
    | ⟨1, _⟩ => exact (dot_S128x1024_S512x1024_S128x512_1_1_0_0_n_n.lhsIdx_val_of_single rfl _ _).trans hk)
  have er : dot_S128x1024_S512x1024_S128x512_1_1_0_0_n_n.rhsIdx (ix2 p q) ((contrEquiv1 dot_S128x1024_S512x1024_S128x512_1_1_0_0_n_n 1024 rfl rfl).symm k) = ix2 q k := funext fun ax => Fin.ext (by
    match ax with
    | ⟨0, _⟩ => exact mm_xW1_r _ _
    | ⟨1, _⟩ => exact (dot_S128x1024_S512x1024_S128x512_1_1_0_0_n_n.rhsIdx_val_of_single rfl _ _).trans hk)
  rw [el, er]

/-- c1-tile · W2ᵀ: both operands contract their last axis. -/
theorem mm_c1W2_l (i : S128x128.Idx) (c : dot_S128x512_S128x512_S128x128_1_1_0_0_n_n.contr.Idx) : (dot_S128x512_S128x512_S128x128_1_1_0_0_n_n.lhsIdx i c 0).val = (i 0).val := by
  unfold DotDims.lhsIdx
  rw [dif_neg (show ¬(0 : Fin S128x512.rank) ∈ dot_S128x512_S128x512_S128x128_1_1_0_0_n_n.lhsBatch by decide), dif_pos (show (0 : Fin S128x512.rank) ∈ dot_S128x512_S128x512_S128x128_1_1_0_0_n_n.lhsNonContracting by decide)]
  rfl
theorem mm_c1W2_r (i : S128x128.Idx) (c : dot_S128x512_S128x512_S128x128_1_1_0_0_n_n.contr.Idx) : (dot_S128x512_S128x512_S128x128_1_1_0_0_n_n.rhsIdx i c 0).val = (i 1).val := by
  unfold DotDims.rhsIdx
  rw [dif_neg (show ¬(0 : Fin S128x512.rank) ∈ dot_S128x512_S128x512_S128x128_1_1_0_0_n_n.rhsBatch by decide), dif_pos (show (0 : Fin S128x512.rank) ∈ dot_S128x512_S128x512_S128x128_1_1_0_0_n_n.rhsNonContracting by decide)]
  rfl
theorem mm_c1W2 (a : FVec Ideal S128x512 .f32) (b : FVec Ideal S128x512 .f32) (p : Fin 128) (q : Fin 128) :
    matmul dot_S128x512_S128x512_S128x128_1_1_0_0_n_n (some .fp32) a b (constant S128x128 .f32 0x00000000#32) (ix2 p q)
      = ∑ k : Fin 512, a (ix2 p k) * b (ix2 q k) := by
  simp only [matmul]
  rw [Ideal.matmul_constant_zero_apply, ← Equiv.sum_comp (contrEquiv1 dot_S128x512_S128x512_S128x128_1_1_0_0_n_n 512 rfl rfl).symm]
  refine Finset.sum_congr rfl fun k _ => ?_
  have hk := contrEquiv1_symm_val dot_S128x512_S128x512_S128x128_1_1_0_0_n_n 512 rfl rfl k
  have el : dot_S128x512_S128x512_S128x128_1_1_0_0_n_n.lhsIdx (ix2 p q) ((contrEquiv1 dot_S128x512_S128x512_S128x128_1_1_0_0_n_n 512 rfl rfl).symm k) = ix2 p k := funext fun ax => Fin.ext (by
    match ax with
    | ⟨0, _⟩ => exact mm_c1W2_l _ _
    | ⟨1, _⟩ => exact (dot_S128x512_S128x512_S128x128_1_1_0_0_n_n.lhsIdx_val_of_single rfl _ _).trans hk)
  have er : dot_S128x512_S128x512_S128x128_1_1_0_0_n_n.rhsIdx (ix2 p q) ((contrEquiv1 dot_S128x512_S128x512_S128x128_1_1_0_0_n_n 512 rfl rfl).symm k) = ix2 q k := funext fun ax => Fin.ext (by
    match ax with
    | ⟨0, _⟩ => exact mm_c1W2_r _ _
    | ⟨1, _⟩ => exact (dot_S128x512_S128x512_S128x128_1_1_0_0_n_n.rhsIdx_val_of_single rfl _ _).trans hk)
  rw [el, er]

/-- c2-tile · W2: the left operand's last axis against the right operand's first. -/
theorem mm_c2W2_l (i : S128x512.Idx) (c : dot_S128x128_S128x512_S128x512_1_0_0_1_n_n.contr.Idx) : (dot_S128x128_S128x512_S128x512_1_0_0_1_n_n.lhsIdx i c 0).val = (i 0).val := by
  unfold DotDims.lhsIdx
  rw [dif_neg (show ¬(0 : Fin S128x128.rank) ∈ dot_S128x128_S128x512_S128x512_1_0_0_1_n_n.lhsBatch by decide), dif_pos (show (0 : Fin S128x128.rank) ∈ dot_S128x128_S128x512_S128x512_1_0_0_1_n_n.lhsNonContracting by decide)]
  rfl
theorem mm_c2W2_r (i : S128x512.Idx) (c : dot_S128x128_S128x512_S128x512_1_0_0_1_n_n.contr.Idx) : (dot_S128x128_S128x512_S128x512_1_0_0_1_n_n.rhsIdx i c 1).val = (i 1).val := by
  unfold DotDims.rhsIdx
  rw [dif_neg (show ¬(1 : Fin S128x512.rank) ∈ dot_S128x128_S128x512_S128x512_1_0_0_1_n_n.rhsBatch by decide), dif_pos (show (1 : Fin S128x512.rank) ∈ dot_S128x128_S128x512_S128x512_1_0_0_1_n_n.rhsNonContracting by decide)]
  rfl
theorem mm_c2W2 (a : FVec Ideal S128x128 .f32) (b : FVec Ideal S128x512 .f32) (p : Fin 128) (q : Fin 512) :
    matmul dot_S128x128_S128x512_S128x512_1_0_0_1_n_n (some .fp32) a b (constant S128x512 .f32 0x00000000#32) (ix2 p q)
      = ∑ k : Fin 128, a (ix2 p k) * b (ix2 k q) := by
  simp only [matmul]
  rw [Ideal.matmul_constant_zero_apply, ← Equiv.sum_comp (contrEquiv1 dot_S128x128_S128x512_S128x512_1_0_0_1_n_n 128 rfl rfl).symm]
  refine Finset.sum_congr rfl fun k _ => ?_
  have hk := contrEquiv1_symm_val dot_S128x128_S128x512_S128x512_1_0_0_1_n_n 128 rfl rfl k
  have el : dot_S128x128_S128x512_S128x512_1_0_0_1_n_n.lhsIdx (ix2 p q) ((contrEquiv1 dot_S128x128_S128x512_S128x512_1_0_0_1_n_n 128 rfl rfl).symm k) = ix2 p k := funext fun ax => Fin.ext (by
    match ax with
    | ⟨0, _⟩ => exact mm_c2W2_l _ _
    | ⟨1, _⟩ => exact (dot_S128x128_S128x512_S128x512_1_0_0_1_n_n.lhsIdx_val_of_single rfl _ _).trans hk)
  have er : dot_S128x128_S128x512_S128x512_1_0_0_1_n_n.rhsIdx (ix2 p q) ((contrEquiv1 dot_S128x128_S128x512_S128x512_1_0_0_1_n_n 128 rfl rfl).symm k) = ix2 k q := funext fun ax => Fin.ext (by
    match ax with
    | ⟨0, _⟩ => exact (dot_S128x128_S128x512_S128x512_1_0_0_1_n_n.rhsIdx_val_of_single rfl _ _).trans hk
    | ⟨1, _⟩ => exact mm_c2W2_r _ _)
  rw [el, er]

/-- c3-tile · W1: the left operand's last axis against the right operand's first. -/
theorem mm_c3W1_l (i : S128x1024.Idx) (c : dot_S128x512_S512x1024_S128x1024_1_0_0_1_n_n.contr.Idx) : (dot_S128x512_S512x1024_S128x1024_1_0_0_1_n_n.lhsIdx i c 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
theorem mm_c3W1_r (i : S128x1024.Idx) (c : dot_S128x512_S512x1024_S128x1024_1_0_0_1_n_n.contr.Idx) : (dot_S128x512_S512x1024_S128x1024_1_0_0_1_n_n.rhsIdx i c 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl
theorem mm_c3W1 (a : FVec Ideal S128x512 .f32) (b : FVec Ideal S512x1024 .f32) (p : Fin 128) (q : Fin 1024) :
    matmul dot_S128x512_S512x1024_S128x1024_1_0_0_1_n_n (some .fp32) a b (constant S128x1024 .f32 0x00000000#32) (ix2 p q)
      = ∑ k : Fin 512, a (ix2 p k) * b (ix2 k q) := by
  simp only [matmul]
  rw [Ideal.matmul_constant_zero_apply, ← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx (ix2 p q) ((contrEquiv1 dot_S128x512_S512x1024_S128x1024_1_0_0_1_n_n 512 rfl rfl).symm k) = ix2 p k := funext fun ax => Fin.ext (by
    match ax with
    | ⟨0, _⟩ => exact mm_c3W1_l _ _
    | ⟨1, _⟩ => exact (dot_S128x512_S512x1024_S128x1024_1_0_0_1_n_n.lhsIdx_val_of_single rfl _ _).trans hk)
  have er : dot_S128x512_S512x1024_S128x1024_1_0_0_1_n_n.rhsIdx (ix2 p q) ((contrEquiv1 dot_S128x512_S512x1024_S128x1024_1_0_0_1_n_n 512 rfl rfl).symm k) = ix2 k q := funext fun ax => Fin.ext (by
    match ax with
    | ⟨0, _⟩ => exact (dot_S128x512_S512x1024_S128x1024_1_0_0_1_n_n.rhsIdx_val_of_single rfl _ _).trans hk
    | ⟨1, _⟩ => exact mm_c3W1_r _ _)
  rw [el, er]

/-! ## A bias vector as a row repeated down the rows -/

/-- A vector reshaped to one row and broadcast over `a` rows holds `v[q]` at every `(p, q)`. -/
theorem biasRows_apply {a b : Nat} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-! ## The layers of one tile -/

/-- σ(x-tile · W1ᵀ + b1) is the specification's sigmoid layer of the tile. -/
theorem layer1_eq (a : FVec Ideal S128x1024 .f32) (W : FVec Ideal S512x1024 .f32) (b : FVec Ideal S512 .f32) :
    logistic (addf (matmul dot_S128x1024_S512x1024_S128x512_1_1_0_0_n_n (some .fp32) a W (constant S128x512 .f32 0x00000000#32))
      (broadcastTo S128x512 (shapeCast S1x512 b shapeCasts_S512_S1x512) broadcasts_S1x512_S128x512))
      = Cert.Cae.layerT a W b := by
  funext j
  obtain ⟨p, q, rfl⟩ : ∃ (p : Fin 128) (q : Fin 512), j = ix2 p q := ⟨j 0, j 1, eq_ix2 j⟩
  rw [Cert.Cae.layerT_apply]
  show Ideal.logistic (matmul dot_S128x1024_S512x1024_S128x512_1_1_0_0_n_n (some .fp32) a W (constant S128x512 .f32 0x00000000#32) (ix2 p q)
      + broadcastTo S128x512 (shapeCast S1x512 b shapeCasts_S512_S1x512) broadcasts_S1x512_S128x512 (ix2 p q)) = _
  rw [mm_xW1, biasRows_apply]

/-- σ(c1-tile · W2ᵀ + b2) likewise. -/
theorem layer2_eq (a : FVec Ideal S128x512 .f32) (W : FVec Ideal S128x512 .f32) (b : FVec Ideal S128 .f32) :
    logistic (addf (matmul dot_S128x512_S128x512_S128x128_1_1_0_0_n_n (some .fp32) a W (constant S128x128 .f32 0x00000000#32))
      (broadcastTo S128x128 (shapeCast S1x128 b shapeCasts_S128_S1x128) broadcasts_S1x128_S128x128))
      = Cert.Cae.layerT a W b := by
  funext j
  obtain ⟨p, q, rfl⟩ : ∃ (p : Fin 128) (q : Fin 128), j = ix2 p q := ⟨j 0, j 1, eq_ix2 j⟩
  rw [Cert.Cae.layerT_apply]
  show Ideal.logistic (matmul dot_S128x512_S128x512_S128x128_1_1_0_0_n_n (some .fp32) a W (constant S128x128 .f32 0x00000000#32) (ix2 p q)
      + broadcastTo S128x128 (shapeCast S1x128 b shapeCasts_S128_S1x128) broadcasts_S1x128_S128x128 (ix2 p q)) = _
  rw [mm_c1W2, biasRows_apply]

/-- c2-tile · W2 + b3 is the specification's affine layer of the tile. -/
theorem layer3_eq (a : FVec Ideal S128x128 .f32) (W : FVec Ideal S128x512 .f32) (b : FVec Ideal S512 .f32) :
    addf (matmul dot_S128x128_S128x512_S128x512_1_0_0_1_n_n (some .fp32) a W (constant S128x512 .f32 0x00000000#32))
      (broadcastTo S128x512 (shapeCast S1x512 b shapeCasts_S512_S1x512) broadcasts_S1x512_S128x512)
      = Cert.Cae.affine a W b := by
  funext j
  obtain ⟨p, q, rfl⟩ : ∃ (p : Fin 128) (q : Fin 512), j = ix2 p q := ⟨j 0, j 1, eq_ix2 j⟩
  rw [Cert.Cae.affine_apply]
  show matmul dot_S128x128_S128x512_S128x512_1_0_0_1_n_n (some .fp32) a W (constant S128x512 .f32 0x00000000#32) (ix2 p q)
      + broadcastTo S128x512 (shapeCast S1x512 b shapeCasts_S512_S1x512) broadcasts_S1x512_S128x512 (ix2 p q) = _
  rw [mm_c2W2, biasRows_apply]

/-- c3-tile · W1 + b_r likewise. -/
theorem layer4_eq (a : FVec Ideal S128x512 .f32) (W : FVec Ideal S512x1024 .f32) (b : FVec Ideal S1024 .f32) :
    addf (matmul dot_S128x512_S512x1024_S128x1024_1_0_0_1_n_n (some .fp32) a W (constant S128x1024 .f32 0x00000000#32))
      (broadcastTo S128x1024 (shapeCast S1x1024 b shapeCasts_S1024_S1x1024) broadcasts_S1x1024_S128x1024)
      = Cert.Cae.affine a W b := by
  funext j
  obtain ⟨p, q, rfl⟩ : ∃ (p : Fin 128) (q : Fin 1024), j = ix2 p q := ⟨j 0, j 1, eq_ix2 j⟩
  rw [Cert.Cae.affine_apply]
  show matmul dot_S128x512_S512x1024_S128x1024_1_0_0_1_n_n (some .fp32) a W (constant S128x1024 .f32 0x00000000#32) (ix2 p q)
      + broadcastTo S128x1024 (shapeCast S1x1024 b shapeCasts_S1024_S1x1024) broadcasts_S1x1024_S128x1024 (ix2 p q) = _
  rw [mm_c3W1, biasRows_apply]

/-! ## The body's five values -/

variable (xb : Vec Ideal S128x1024 .f32) (W1 : Vec Ideal S512x1024 .f32) (W2 : Vec Ideal S128x512 .f32)
  (b1 : Vec Ideal S512 .f32) (b2 : Vec Ideal S128 .f32) (b3 : Vec Ideal S512 .f32) (br : Vec Ideal S1024 .f32)

/-- c1 of the tile. -/
theorem hid1_tile : k0_pay1 (F := Ideal) xb W1 b1 = Cert.Cae.layerT xb W1 b1 := by
  unfold k0_pay1
  exact layer1_eq xb W1 b1

/-- σ'(c1) of the tile. -/
theorem slope1_tile : k0_pay2 (F := Ideal) xb W1 b1 = Cert.Cae.dsig (Cert.Cae.layerT xb W1 b1) := by
  unfold k0_pay2
  rw [hid1_tile]
  rfl

/-- The code c2 of the tile. -/
theorem code_tile : k0_pay3 (F := Ideal) xb W1 W2 b1 b2 = Cert.Cae.layerT (Cert.Cae.layerT xb W1 b1) W2 b2 := by
  unfold k0_pay3
  rw [hid1_tile]
  exact layer2_eq _ W2 b2

/-- σ'(c2) of the tile. -/
theorem slope2_tile : k0_pay4 (F := Ideal) xb W1 W2 b1 b2
    = Cert.Cae.dsig (Cert.Cae.layerT (Cert.Cae.layerT xb W1 b1) W2 b2) := by
  unfold k0_pay4
  rw [code_tile]
  rfl

/-- The reconstruction of the tile. -/
theorem recon_tile : k0_pay5 (F := Ideal) xb W1 W2 b1 b2 b3 br
    = Cert.Cae.affine (Cert.Cae.sig (Cert.Cae.affine (Cert.Cae.layerT (Cert.Cae.layerT xb W1 b1) W2 b2) W2 b3)) W1 br := by
  unfold k0_pay5
  dsimp only
  rw [code_tile, layer3_eq]
  exact layer4_eq _ W1 br

end Cert.KernelIdeal.MlpValue

end
-- ==== Proof.MlpArray.lean ====
/-
  From blocks to arrays, for the first region.

  The region visits four grid points; at point `t` it fetches samples `128·t … 128·t + 127` of the input, runs the body
  on that tile together with the whole weight matrices and bias vectors, and writes each of its four results back to rows
  `128·t … 128·t + 127` of the result's array. Because the network acts row by row, what point `t` writes back is block `t`
  of ONE whole-array function of the arguments; the four blocks tile each array, so after the region each array holds
  that function: the reconstruction, the code, and the two slope arrays the second region reads.
-/
import proofs.«164810_j23785528885730_2_alg».proof.Proof.SpecRows
import proofs.«164810_j23785528885730_2_alg».proof.Proof.MlpBlock
import proofs.«164810_j23785528885730_2_alg».proof.Proof.Gen.KernelIdeal.Frame
import Idealize.ShloMosaic.Lib.Pipeline.Value

set_option maxRecDepth 16384

noncomputable section

namespace Cert.KernelIdeal.MlpValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the input tile and the four output tiles sit at block row `t`,
    block column 0; the weights and biases are one block, at index 0. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem whole_facts : ∀ t : Fin cfg0.N, win0_1.index t (0 : Fin 2) = 0 ∧ win0_1.index t (1 : Fin 2) = 0
    ∧ win0_2.index t (0 : Fin 1) = 0 ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0 :=
  (by decide +kernel : ∀ t : Fin grid0.N, _)

/-! ## The input windows' blocks -/

/-- The tile fetched at point `t` is rows `128·t …` of the input array. -/
theorem tile_rows (c : Dev nD) (t : Fin cfg0.N) (hR : 128 * t.val + 128 ≤ 512) (p : Fin 128) (k : Fin 1024) :
    iblk0 V c 0 t (ix2 p k) = V c main_arg0 (ix2 (Cert.Cae.rowAt (128 * t.val) hR p) k) := by
  obtain ⟨e0, e1, -⟩ := idx_facts t
  show V c main_arg0 (((cfg0.win 0).blk t).view.emb (ix2 p k)) = V c main_arg0 _
  refine congrArg (V c main_arg0) ?_
  funext a; apply Fin.ext
  match a with
  | ⟨0, _⟩ => show win0_0.index t (0 : Fin 2) * 128 + 1 * p.val = 128 * t.val + p.val; rw [e0]; omega
  | ⟨1, _⟩ => show win0_0.index t (1 : Fin 2) * 1024 + 1 * k.val = k.val; rw [e1]; omega

/-- The weights and biases are fetched whole. -/
theorem whole1 (c : Dev nD) (t : Fin cfg0.N) : iblk0 V c 1 t = V c main_arg1 := by
  obtain ⟨e0, e1, -⟩ := whole_facts t
  funext y
  show V c main_arg1 (((cfg0.win 1).blk t).view.emb y) = V c main_arg1 y
  refine congrArg (V c main_arg1) ?_
  funext a; apply Fin.ext
  match a with
  | ⟨0, _⟩ => show win0_1.index t (0 : Fin 2) * 512 + 1 * (y 0).val = (y 0).val; rw [e0]; omega
  | ⟨1, _⟩ => show win0_1.index t (1 : Fin 2) * 1024 + 1 * (y 1).val = (y 1).val; rw [e1]; omega
theorem whole2 (c : Dev nD) (t : Fin cfg0.N) : iblk0 V c 2 t = V c main_arg2 := by
  obtain ⟨-, -, e2, -⟩ := whole_facts t
  funext y
  show V c main_arg2 (((cfg0.win 2).blk t).view.emb y) = V c main_arg2 y
  refine congrArg (V c main_arg2) ?_
  funext a; apply Fin.ext
  match a with
  | ⟨0, _⟩ => show win0_2.index t (0 : Fin 1) * 512 + 1 * (y 0).val = (y 0).val; rw [e2]; omega
theorem whole3 (c : Dev nD) (t : Fin cfg0.N) : iblk0 V c 3 t = V c main_arg3 := by
  obtain ⟨-, -, -, e3, e4, -⟩ := whole_facts t
  funext y
  show V c main_arg3 (((cfg0.win 3).blk t).view.emb y) = V c main_arg3 y
  refine congrArg (V c main_arg3) ?_
  funext a; apply Fin.ext
  match a with
  | ⟨0, _⟩ => show win0_3.index t (0 : Fin 2) * 128 + 1 * (y 0).val = (y 0).val; rw [e3]; omega
  | ⟨1, _⟩ => show win0_3.index t (1 : Fin 2) * 512 + 1 * (y 1).val = (y 1).val; rw [e4]; omega
theorem whole4 (c : Dev nD) (t : Fin cfg0.N) : iblk0 V c 4 t = V c main_arg4 := by
  obtain ⟨-, -, -, -, -, e5, -⟩ := whole_facts t
  funext y
  show V c main_arg4 (((cfg0.win 4).blk t).view.emb y) = V c main_arg4 y
  refine congrArg (V c main_arg4) ?_
  funext a; apply Fin.ext
  match a with
  | ⟨0, _⟩ => show win0_4.index t (0 : Fin 1) * 128 + 1 * (y 0).val = (y 0).val; rw [e5]; omega
theorem whole5 (c : Dev nD) (t : Fin cfg0.N) : iblk0 V c 5 t = V c main_arg5 := by
  obtain ⟨-, -, -, -, -, -, e6, -⟩ := whole_facts t
  funext y
  show V c main_arg5 (((cfg0.win 5).blk t).view.emb y) = V c main_arg5 y
  refine congrArg (V c main_arg5) ?_
  funext a; apply Fin.ext
  match a with
  | ⟨0, _⟩ => show win0_5.index t (0 : Fin 1) * 512 + 1 * (y 0).val = (y 0).val; rw [e6]; omega
theorem whole6 (c : Dev nD) (t : Fin cfg0.N) : iblk0 V c 6 t = V c main_arg6 := by
  obtain ⟨-, -, -, -, -, -, -, e7⟩ := whole_facts t
  funext y
  show V c main_arg6 (((cfg0.win 6).blk t).view.emb y) = V c main_arg6 y
  refine congrArg (V c main_arg6) ?_
  funext a; apply Fin.ext
  match a with
  | ⟨0, _⟩ => show win0_6.index t (0 : Fin 1) * 1024 + 1 * (y 0).val = (y 0).val; rw [e7]; omega

/-! ## Output window 7: the reconstruction -/

/-- What the body leaves in the window's buffer is the network of the tile. -/
theorem recon_out (x0 : Vec Ideal S128x1024 .f32) (x1 : Vec Ideal S512x1024 .f32) (x2 : Vec Ideal S512 .f32)
    (x3 : Vec Ideal S128x512 .f32) (x4 : Vec Ideal S128 .f32) (x5 : Vec Ideal S512 .f32) (x6 : Vec Ideal S1024 .f32) :
    out0_7 (F := Ideal) x0 x1 x2 x3 x4 x5 x6 = Cert.Cae.affine (Cert.Cae.sig (Cert.Cae.affine (Cert.Cae.layerT (Cert.Cae.layerT x0 x1 x2) x3 x4) x3 x5)) x1 x6 := by
  unfold out0_7
  rw [View.canon_unit_zero hz2]
  simp only [View.ld_unit_zero (S := S128x1024) hz2, View.ld_unit_zero (S := S512x1024) hz2,
    View.ld_unit_zero (S := S128x512) hz2, View.ld_unit_zero (S := S512) hz1, View.ld_unit_zero (S := S128) hz1,
    View.ld_unit_zero (S := S1024) hz1]
  exact recon_tile x0 x1 x3 x2 x4 x5 x6

/-- An index of the array is in point `t`'s block iff each coordinate is in the block's range on its axis. -/
theorem recon_mem_blk (t : Fin cfg0.N) (i : S512x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v0_0).slice (win0_7.rect t)).set ↔ _
  rw [View.set_slice_whole, Rect.mem_set_unit]
  exact Iff.rfl

/-- The four blocks of 128 samples tile the array: sample `r` is in the block of point `r / 128`. -/
theorem recon_cover (i : S512x1024.Idx) :
    ∃ t : Fin cfg0.N, (cfg0.win 7).flush t = true ∧ i ∈ ((cfg0.win 7).blk t).view.set := by
  have hi0 : (i 0).val < 512 := (i 0).isLt
  have hi1 : (i 1).val < 1024 := (i 1).isLt
  let t : Fin cfg0.N := ⟨(i 0).val / 128, by rw [show cfg0.N = 4 from N_0]; omega⟩
  obtain ⟨e0, e1, e2, e3, e4, e5, e6, e7, e8, e9⟩ := idx_facts t
  refine ⟨t, flush0_7 t, ?_⟩
  rw [recon_mem_blk]
  intro a
  match a with
  | ⟨0, _⟩ =>
    show win0_7.index t (0 : Fin 2) * 128 ≤ (i 0).val ∧ (i 0).val < win0_7.index t (0 : Fin 2) * 128 + 128
    rw [e2]
    show (i 0).val / 128 * 128 ≤ (i 0).val ∧ (i 0).val < (i 0).val / 128 * 128 + 128
    omega
  | ⟨1, _⟩ =>
    show win0_7.index t (1 : Fin 2) * 1024 ≤ (i 1).val ∧ (i 1).val < win0_7.index t (1 : Fin 2) * 1024 + 1024
    rw [e3]
    omega

/-- What point `t` writes back is block `t` of the reconstruction, as a function of the argument arrays the region finds. -/
theorem recon_flushed (c : Dev nD) (t : Fin cfg0.N) :
    (dat0 (F := Ideal) V c).flushed 7 t = ((cfg0.win 7).blk t).view.read (Elt Ideal) (Cert.Cae.recon (V c main_arg0) (V c main_arg1) (V c main_arg2) (V c main_arg3) (V c main_arg4) (V c main_arg5) (V c main_arg6)) := by
  show (cfg0.win 7).cut (grid0.coords t) ((dat0 V c).after 7 t) = _
  rw [after0_7, recon_out, whole1 V c t, whole2 V c t, whole3 V c t, whole4 V c t, whole5 V c t, whole6 V c t]
  obtain ⟨e0, e1, e2, e3, e4, e5, e6, e7, e8, e9⟩ := idx_facts t
  have hR : 128 * t.val + 128 ≤ 512 := by have ht : t.val < 4 := lt_of_lt_of_eq t.isLt N_0; omega
  funext j
  show Cert.Cae.affine (Cert.Cae.sig (Cert.Cae.affine (Cert.Cae.layerT (Cert.Cae.layerT (iblk0 V c 0 t) (V c main_arg1) (V c main_arg2)) (V c main_arg3) (V c main_arg4)) (V c main_arg3) (V c main_arg5))) (V c main_arg1) (V c main_arg6) j = (Cert.Cae.recon (V c main_arg0) (V c main_arg1) (V c main_arg2) (V c main_arg3) (V c main_arg4) (V c main_arg5) (V c main_arg6)) (((cfg0.win 7).blk t).view.emb j)
  refine Cert.Cae.recon_block (128 * t.val) hR (iblk0 V c 0 t) (V c main_arg0) (V c main_arg1) (V c main_arg2) (V c main_arg3) (V c main_arg4) (V c main_arg5) (V c main_arg6) (tile_rows V c t hR) j _ ?_ ?_
  · show win0_7.index t (0 : Fin 2) * 128 + 1 * (j 0).val = 128 * t.val + (j 0).val
    rw [e2]; omega
  · show win0_7.index t (1 : Fin 2) * 1024 + 1 * (j 1).val = (j 1).val
    rw [e3]; omega

/-- The array after the region: the reconstruction of the argument arrays. -/
theorem recon_final (c : Dev nD) :
    (dat0 (F := Ideal) V c).arrAt 7 cfg0.N = Cert.Cae.recon (V c main_arg0) (V c main_arg1) (V c main_arg2) (V c main_arg3) (V c main_arg4) (V c main_arg5) (V c main_arg6) :=
  (dat0 (F := Ideal) V c).arrAt_eq_of_cover 7 _ (fun t _ => recon_flushed V c t) recon_cover

end Cert.KernelIdeal.MlpValue

end
-- ==== Proof.MlpArrayCode.lean ====
/-
  From blocks to arrays, for the first region's code and its slope: the same argument as for the reconstruction, with
  the code's layers in place of the whole network. Point `t` writes back rows `128·t … 128·t + 127` of the code and of
  σ'(code); the four blocks tile each [512, 128] array.
-/
import proofs.«164810_j23785528885730_2_alg».proof.Proof.MlpArray

set_option maxRecDepth 16384

noncomputable section

namespace Cert.KernelIdeal.MlpValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Output window 8: the code -/

/-- What the body leaves in the window's buffer is the network of the tile. -/
theorem code_out (x0 : Vec Ideal S128x1024 .f32) (x1 : Vec Ideal S512x1024 .f32) (x2 : Vec Ideal S512 .f32)
    (x3 : Vec Ideal S128x512 .f32) (x4 : Vec Ideal S128 .f32) (x5 : Vec Ideal S512 .f32) (x6 : Vec Ideal S1024 .f32) :
    out0_8 (F := Ideal) x0 x1 x2 x3 x4 x5 x6 = Cert.Cae.layerT (Cert.Cae.layerT x0 x1 x2) x3 x4 := by
  unfold out0_8
  rw [View.canon_unit_zero hz2]
  simp only [View.ld_unit_zero (S := S128x1024) hz2, View.ld_unit_zero (S := S512x1024) hz2,
    View.ld_unit_zero (S := S128x512) hz2, View.ld_unit_zero (S := S512) hz1, View.ld_unit_zero (S := S128) hz1,
    View.ld_unit_zero (S := S1024) hz1]
  exact code_tile x0 x1 x3 x2 x4

/-- An index of the array is in point `t`'s block iff each coordinate is in the block's range on its axis. -/
theorem code_mem_blk (t : Fin cfg0.N) (i : S512x128.Idx) :
    i ∈ ((cfg0.win 8).blk t).view.set ↔ ∀ a : Fin 2, win0_8.index t a * S128x128.size a ≤ (i a).val ∧ (i a).val < win0_8.index t a * S128x128.size a + S128x128.size a := by
  show i ∈ ((View.whole main_v0_1).slice (win0_8.rect t)).set ↔ _
  rw [View.set_slice_whole, Rect.mem_set_unit]
  exact Iff.rfl

/-- The four blocks of 128 samples tile the array: sample `r` is in the block of point `r / 128`. -/
theorem code_cover (i : S512x128.Idx) :
    ∃ t : Fin cfg0.N, (cfg0.win 8).flush t = true ∧ i ∈ ((cfg0.win 8).blk t).view.set := by
  have hi0 : (i 0).val < 512 := (i 0).isLt
  have hi1 : (i 1).val < 128 := (i 1).isLt
  let t : Fin cfg0.N := ⟨(i 0).val / 128, by rw [show cfg0.N = 4 from N_0]; omega⟩
  obtain ⟨e0, e1, e2, e3, e4, e5, e6, e7, e8, e9⟩ := idx_facts t
  refine ⟨t, flush0_8 t, ?_⟩
  rw [code_mem_blk]
  intro a
  match a with
  | ⟨0, _⟩ =>
    show win0_8.index t (0 : Fin 2) * 128 ≤ (i 0).val ∧ (i 0).val < win0_8.index t (0 : Fin 2) * 128 + 128
    rw [e4]
    show (i 0).val / 128 * 128 ≤ (i 0).val ∧ (i 0).val < (i 0).val / 128 * 128 + 128
    omega
  | ⟨1, _⟩ =>
    show win0_8.index t (1 : Fin 2) * 128 ≤ (i 1).val ∧ (i 1).val < win0_8.index t (1 : Fin 2) * 128 + 128
    rw [e5]
    omega

/-- What point `t` writes back is block `t` of the code, as a function of the argument arrays the region finds. -/
theorem code_flushed (c : Dev nD) (t : Fin cfg0.N) :
    (dat0 (F := Ideal) V c).flushed 8 t = ((cfg0.win 8).blk t).view.read (Elt Ideal) (Cert.Cae.code (V c main_arg0) (V c main_arg1) (V c main_arg2) (V c main_arg3) (V c main_arg4)) := by
  show (cfg0.win 8).cut (grid0.coords t) ((dat0 V c).after 8 t) = _
  rw [after0_8, code_out, whole1 V c t, whole2 V c t, whole3 V c t, whole4 V c t]
  obtain ⟨e0, e1, e2, e3, e4, e5, e6, e7, e8, e9⟩ := idx_facts t
  have hR : 128 * t.val + 128 ≤ 512 := by have ht : t.val < 4 := lt_of_lt_of_eq t.isLt N_0; omega
  funext j
  show Cert.Cae.layerT (Cert.Cae.layerT (iblk0 V c 0 t) (V c main_arg1) (V c main_arg2)) (V c main_arg3) (V c main_arg4) j = (Cert.Cae.code (V c main_arg0) (V c main_arg1) (V c main_arg2) (V c main_arg3) (V c main_arg4)) (((cfg0.win 8).blk t).view.emb j)
  refine Cert.Cae.code_block (128 * t.val) hR (iblk0 V c 0 t) (V c main_arg0) (V c main_arg1) (V c main_arg2) (V c main_arg3) (V c main_arg4) (tile_rows V c t hR) j _ ?_ ?_
  · show win0_8.index t (0 : Fin 2) * 128 + 1 * (j 0).val = 128 * t.val + (j 0).val
    rw [e4]; omega
  · show win0_8.index t (1 : Fin 2) * 128 + 1 * (j 1).val = (j 1).val
    rw [e5]; omega

/-- The array after the region: the code of the argument arrays. -/
theorem code_final (c : Dev nD) :
    (dat0 (F := Ideal) V c).arrAt 8 cfg0.N = Cert.Cae.code (V c main_arg0) (V c main_arg1) (V c main_arg2) (V c main_arg3) (V c main_arg4) :=
  (dat0 (F := Ideal) V c).arrAt_eq_of_cover 8 _ (fun t _ => code_flushed V c t) code_cover

/-! ## Output window 10: the code's slope σ'(c2) -/

/-- What the body leaves in the window's buffer is the network of the tile. -/
theorem slope2_out (x0 : Vec Ideal S128x1024 .f32) (x1 : Vec Ideal S512x1024 .f32) (x2 : Vec Ideal S512 .f32)
    (x3 : Vec Ideal S128x512 .f32) (x4 : Vec Ideal S128 .f32) (x5 : Vec Ideal S512 .f32) (x6 : Vec Ideal S1024 .f32) :
    out0_10 (F := Ideal) x0 x1 x2 x3 x4 x5 x6 = Cert.Cae.dsig (Cert.Cae.layerT (Cert.Cae.layerT x0 x1 x2) x3 x4) := by
  unfold out0_10
  rw [View.canon_unit_zero hz2]
  simp only [View.ld_unit_zero (S := S128x1024) hz2, View.ld_unit_zero (S := S512x1024) hz2,
    View.ld_unit_zero (S := S128x512) hz2, View.ld_unit_zero (S := S512) hz1, View.ld_unit_zero (S := S128) hz1,
    View.ld_unit_zero (S := S1024) hz1]
  exact slope2_tile x0 x1 x3 x2 x4

/-- An index of the array is in point `t`'s block iff each coordinate is in the block's range on its axis. -/
theorem slope2_mem_blk (t : Fin cfg0.N) (i : S512x128.Idx) :
    i ∈ ((cfg0.win 10).blk t).view.set ↔ ∀ a : Fin 2, win0_10.index t a * S128x128.size a ≤ (i a).val ∧ (i a).val < win0_10.index t a * S128x128.size a + S128x128.size a := by
  show i ∈ ((View.whole main_v0_3).slice (win0_10.rect t)).set ↔ _
  rw [View.set_slice_whole, Rect.mem_set_unit]
  exact Iff.rfl

/-- The four blocks of 128 samples tile the array: sample `r` is in the block of point `r / 128`. -/
theorem slope2_cover (i : S512x128.Idx) :
    ∃ t : Fin cfg0.N, (cfg0.win 10).flush t = true ∧ i ∈ ((cfg0.win 10).blk t).view.set := by
  have hi0 : (i 0).val < 512 := (i 0).isLt
  have hi1 : (i 1).val < 128 := (i 1).isLt
  let t : Fin cfg0.N := ⟨(i 0).val / 128, by rw [show cfg0.N = 4 from N_0]; omega⟩
  obtain ⟨e0, e1, e2, e3, e4, e5, e6, e7, e8, e9⟩ := idx_facts t
  refine ⟨t, flush0_10 t, ?_⟩
  rw [slope2_mem_blk]
  intro a
  match a with
  | ⟨0, _⟩ =>
    show win0_10.index t (0 : Fin 2) * 128 ≤ (i 0).val ∧ (i 0).val < win0_10.index t (0 : Fin 2) * 128 + 128
    rw [e8]
    show (i 0).val / 128 * 128 ≤ (i 0).val ∧ (i 0).val < (i 0).val / 128 * 128 + 128
    omega
  | ⟨1, _⟩ =>
    show win0_10.index t (1 : Fin 2) * 128 ≤ (i 1).val ∧ (i 1).val < win0_10.index t (1 : Fin 2) * 128 + 128
    rw [e9]
    omega

/-- What point `t` writes back is block `t` of the code's slope σ'(c2), as a function of the argument arrays the region finds. -/
theorem slope2_flushed (c : Dev nD) (t : Fin cfg0.N) :
    (dat0 (F := Ideal) V c).flushed 10 t = ((cfg0.win 10).blk t).view.read (Elt Ideal) (Cert.Cae.slope2 (V c main_arg0) (V c main_arg1) (V c main_arg2) (V c main_arg3) (V c main_arg4)) := by
  show (cfg0.win 10).cut (grid0.coords t) ((dat0 V c).after 10 t) = _
  rw [after0_10, slope2_out, whole1 V c t, whole2 V c t, whole3 V c t, whole4 V c t]
  obtain ⟨e0, e1, e2, e3, e4, e5, e6, e7, e8, e9⟩ := idx_facts t
  have hR : 128 * t.val + 128 ≤ 512 := by have ht : t.val < 4 := lt_of_lt_of_eq t.isLt N_0; omega
  funext j
  show Cert.Cae.dsig (Cert.Cae.layerT (Cert.Cae.layerT (iblk0 V c 0 t) (V c main_arg1) (V c main_arg2)) (V c main_arg3) (V c main_arg4)) j = (Cert.Cae.slope2 (V c main_arg0) (V c main_arg1) (V c main_arg2) (V c main_arg3) (V c main_arg4)) (((cfg0.win 10).blk t).view.emb j)
  refine Cert.Cae.slope2_block (128 * t.val) hR (iblk0 V c 0 t) (V c main_arg0) (V c main_arg1) (V c main_arg2) (V c main_arg3) (V c main_arg4) (tile_rows V c t hR) j _ ?_ ?_
  · show win0_10.index t (0 : Fin 2) * 128 + 1 * (j 0).val = 128 * t.val + (j 0).val
    rw [e8]; omega
  · show win0_10.index t (1 : Fin 2) * 128 + 1 * (j 1).val = (j 1).val
    rw [e9]; omega

/-- The array after the region: the code's slope σ'(c2) of the argument arrays. -/
theorem slope2_final (c : Dev nD) :
    (dat0 (F := Ideal) V c).arrAt 10 cfg0.N = Cert.Cae.slope2 (V c main_arg0) (V c main_arg1) (V c main_arg2) (V c main_arg3) (V c main_arg4) :=
  (dat0 (F := Ideal) V c).arrAt_eq_of_cover 10 _ (fun t _ => slope2_flushed V c t) slope2_cover

end Cert.KernelIdeal.MlpValue

end
-- ==== Proof.MlpArraySlope.lean ====
/-
  From blocks to arrays, for the first hidden layer's slope σ'(c1): point `t` writes back rows `128·t … 128·t + 127`;
  the four blocks tile the [512, 512] array.
-/
import proofs.«164810_j23785528885730_2_alg».proof.Proof.MlpArray

set_option maxRecDepth 16384

noncomputable section

namespace Cert.KernelIdeal.MlpValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Output window 9: the first hidden layer's slope σ'(c1) -/

/-- What the body leaves in the window's buffer is the network of the tile. -/
theorem slope1_out (x0 : Vec Ideal S128x1024 .f32) (x1 : Vec Ideal S512x1024 .f32) (x2 : Vec Ideal S512 .f32)
    (x3 : Vec Ideal S128x512 .f32) (x4 : Vec Ideal S128 .f32) (x5 : Vec Ideal S512 .f32) (x6 : Vec Ideal S1024 .f32) :
    out0_9 (F := Ideal) x0 x1 x2 x3 x4 x5 x6 = Cert.Cae.dsig (Cert.Cae.layerT x0 x1 x2) := by
  unfold out0_9
  rw [View.canon_unit_zero hz2]
  simp only [View.ld_unit_zero (S := S128x1024) hz2, View.ld_unit_zero (S := S512x1024) hz2,
    View.ld_unit_zero (S := S128x512) hz2, View.ld_unit_zero (S := S512) hz1, View.ld_unit_zero (S := S128) hz1,
    View.ld_unit_zero (S := S1024) hz1]
  exact slope1_tile x0 x1 x2

/-- An index of the array is in point `t`'s block iff each coordinate is in the block's range on its axis. -/
theorem slope1_mem_blk (t : Fin cfg0.N) (i : S512x512.Idx) :
    i ∈ ((cfg0.win 9).blk t).view.set ↔ ∀ a : Fin 2, win0_9.index t a * S128x512.size a ≤ (i a).val ∧ (i a).val < win0_9.index t a * S128x512.size a + S128x512.size a := by
  show i ∈ ((View.whole main_v0_2).slice (win0_9.rect t)).set ↔ _
  rw [View.set_slice_whole, Rect.mem_set_unit]
  exact Iff.rfl

/-- The four blocks of 128 samples tile the array: sample `r` is in the block of point `r / 128`. -/
theorem slope1_cover (i : S512x512.Idx) :
    ∃ t : Fin cfg0.N, (cfg0.win 9).flush t = true ∧ i ∈ ((cfg0.win 9).blk t).view.set := by
  have hi0 : (i 0).val < 512 := (i 0).isLt
  have hi1 : (i 1).val < 512 := (i 1).isLt
  let t : Fin cfg0.N := ⟨(i 0).val / 128, by rw [show cfg0.N = 4 from N_0]; omega⟩
  obtain ⟨e0, e1, e2, e3, e4, e5, e6, e7, e8, e9⟩ := idx_facts t
  refine ⟨t, flush0_9 t, ?_⟩
  rw [slope1_mem_blk]
  intro a
  match a with
  | ⟨0, _⟩ =>
    show win0_9.index t (0 : Fin 2) * 128 ≤ (i 0).val ∧ (i 0).val < win0_9.index t (0 : Fin 2) * 128 + 128
    rw [e6]
    show (i 0).val / 128 * 128 ≤ (i 0).val ∧ (i 0).val < (i 0).val / 128 * 128 + 128
    omega
  | ⟨1, _⟩ =>
    show win0_9.index t (1 : Fin 2) * 512 ≤ (i 1).val ∧ (i 1).val < win0_9.index t (1 : Fin 2) * 512 + 512
    rw [e7]
    omega

/-- What point `t` writes back is block `t` of the first hidden layer's slope σ'(c1), as a function of the argument arrays the region finds. -/
theorem slope1_flushed (c : Dev nD) (t : Fin cfg0.N) :
    (dat0 (F := Ideal) V c).flushed 9 t = ((cfg0.win 9).blk t).view.read (Elt Ideal) (Cert.Cae.slope1 (V c main_arg0) (V c main_arg1) (V c main_arg2)) := by
  show (cfg0.win 9).cut (grid0.coords t) ((dat0 V c).after 9 t) = _
  rw [after0_9, slope1_out, whole1 V c t, whole2 V c t]
  obtain ⟨e0, e1, e2, e3, e4, e5, e6, e7, e8, e9⟩ := idx_facts t
  have hR : 128 * t.val + 128 ≤ 512 := by have ht : t.val < 4 := lt_of_lt_of_eq t.isLt N_0; omega
  funext j
  show Cert.Cae.dsig (Cert.Cae.layerT (iblk0 V c 0 t) (V c main_arg1) (V c main_arg2)) j = (Cert.Cae.slope1 (V c main_arg0) (V c main_arg1) (V c main_arg2)) (((cfg0.win 9).blk t).view.emb j)
  refine Cert.Cae.slope1_block (128 * t.val) hR (iblk0 V c 0 t) (V c main_arg0) (V c main_arg1) (V c main_arg2) (tile_rows V c t hR) j _ ?_ ?_
  · show win0_9.index t (0 : Fin 2) * 128 + 1 * (j 0).val = 128 * t.val + (j 0).val
    rw [e6]; omega
  · show win0_9.index t (1 : Fin 2) * 512 + 1 * (j 1).val = (j 1).val
    rw [e7]; omega

/-- The array after the region: the first hidden layer's slope σ'(c1) of the argument arrays. -/
theorem slope1_final (c : Dev nD) :
    (dat0 (F := Ideal) V c).arrAt 9 cfg0.N = Cert.Cae.slope1 (V c main_arg0) (V c main_arg1) (V c main_arg2) :=
  (dat0 (F := Ideal) V c).arrAt_eq_of_cover 9 _ (fun t _ => slope1_flushed V c t) slope1_cover

end Cert.KernelIdeal.MlpValue

end
-- ==== Proof.JacBlock.lean ====
/-
  The Jacobian region's body, read at an index.

  One grid point of the second region holds 16 samples. From the point's blocks
    s1 : [16, 512]   (σ'(c1) rows),   s2 : [16, 128]   (σ'(c2) rows),   W2 : [128, 512],   W1 : [512, 1024]
  the body forms the three-way product  M[b, h, k] = (s2[b, h] · W2[h, k]) · s1[b, k]  by broadcasting each factor to
  [16, 128, 512], lays the 16 · 128 rows (b, h) out as the rows 128 · b + h of a [2048, 512] matrix, multiplies that matrix
  by W1, and lays the 2048 result rows back out as [16, 128, 1024]. At the extended reals a change of float format is the
  identity and the matrix product into the zero matrix is the plain finite sum, so entry (b, h, d) of what the body stores is
    Σ_k ((s2[b, h] · W2[h, k]) · s1[b, k]) · W1[k, d].
  Each re-laying and each broadcast is read at explicit coordinates below; the last theorem chains them.
-/
import proofs.«164810_j23785528885730_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.JacValue

open Cert.KernelIdeal Cert.KernelIdeal.Gen Idealize.ShloMosaic Idealize.ShloMosaic.ValueIdx Idealize.ShloMosaic.Pipeline

/-! ## Rows (b, h) of a stack of 16 matrices as rows 128 · b + h of one tall matrix -/

/-- The row 128 · b + h of the tall matrix, for a sample b < 16 and a code unit h < 128. -/
abbrev tallRow (b : Fin 16) (h : Fin 128) : Fin 2048 := ⟨128 * b.val + h.val, by omega⟩

/-- A [2048, 1024] matrix laid out as [16, 128, 1024] reads, at (b, h, d), the matrix at (128 · b + h, d):
    the two indices have the same row-major position. -/
theorem unstackRows_apply {α : Type} (x : S2048x1024.Idx → α) (hc : S2048x1024.ShapeCasts S16x128x1024)
    (b : Fin 16) (h : Fin 128) (d : Fin 1024) :
    shapeCast S16x128x1024 x hc (ix3 b h d) = x (ix2 (tallRow b h) d) :=
  shapeCast_apply x hc _ _ (by
    rw [Shape.rowMajor_val_two, Shape.rowMajor_val_three]
    show (128 * b.val + h.val) * 1024 + d.val = (b.val * 128 + h.val) * 1024 + d.val
    omega)

/-- A [16, 128, 512] stack laid out as a [2048, 512] matrix reads, at (128 · b + h, k), the stack at (b, h, k). -/
theorem stackRows_apply {α : Type} (x : S16x128x512.Idx → α) (hc : S16x128x512.ShapeCasts S2048x512)
    (b : Fin 16) (h : Fin 128) (k : Fin 512) :
    shapeCast S2048x512 x hc (ix2 (tallRow b h) k) = x (ix3 b h k) :=
  shapeCast_apply x hc _ _ (by
    rw [Shape.rowMajor_val_two, Shape.rowMajor_val_three]
    show (b.val * 128 + h.val) * 512 + k.val = (128 * b.val + h.val) * 512 + k.val
    omega)

/-! ## A unit axis added in the middle or at the end -/

/-- A [16, 128] matrix given a trailing unit axis reads, at (b, h, u), the matrix at (b, h). -/
theorem addLastUnit_apply {α : Type} (x : S16x128.Idx → α) (hc : S16x128.ShapeCasts S16x128x1)
    (b : Fin 16) (h : Fin 128) (u : Fin 1) :
    shapeCast S16x128x1 x hc (ix3 b h u) = x (ix2 b h) :=
  shapeCast_apply x hc _ _ (by
    have hu : u.val = 0 := by omega
    rw [Shape.rowMajor_val_two, Shape.rowMajor_val_three]
    show b.val * 128 + h.val = (b.val * 128 + h.val) * 1 + u.val
    omega)

/-- A [16, 512] matrix given a unit axis in the middle reads, at (b, u, k), the matrix at (b, k). -/
theorem addMidUnit_apply {α : Type} (x : S16x512.Idx → α) (hc : S16x512.ShapeCasts S16x1x512)
    (b : Fin 16) (u : Fin 1) (k : Fin 512) :
    shapeCast S16x1x512 x hc (ix3 b u k) = x (ix2 b k) :=
  shapeCast_apply x hc _ _ (by
    have hu : u.val = 0 := by omega
    rw [Shape.rowMajor_val_two, Shape.rowMajor_val_three]
    show b.val * 512 + k.val = (b.val * 1 + u.val) * 512 + k.val
    omega)

/-! ## The three broadcasts to [16, 128, 512] -/

/-- A column [16, 128, 1] repeated along the last axis reads, at (b, h, k), the column at (b, h, 0). -/
theorem alongLast_apply {α : Type} (x : S16x128x1.Idx → α) (hb : S16x128x1.Broadcasts S16x128x512)
    (b : Fin 16) (h : Fin 128) (k : Fin 512) :
    broadcastTo S16x128x512 x hb (ix3 b h k) = x (ix3 b h (0 : Fin 1)) :=
  broadcastTo_apply x hb (ix3 b h k) (ix3 b h (0 : Fin 1)) fun a => match a with
    | ⟨0, _⟩ => by show b.val = if (16 : Nat) = 1 then 0 else b.val; rw [if_neg (by decide)]
    | ⟨1, _⟩ => by show h.val = if (128 : Nat) = 1 then 0 else h.val; rw [if_neg (by decide)]
    | ⟨2, _⟩ => by show 0 = if (1 : Nat) = 1 then 0 else k.val; rw [if_pos rfl]

/-- One matrix [1, 128, 512] repeated along the first axis reads, at (b, h, k), the matrix at (0, h, k). -/
theorem alongFirst_apply {α : Type} (x : S1x128x512.Idx → α) (hb : S1x128x512.Broadcasts S16x128x512)
    (b : Fin 16) (h : Fin 128) (k : Fin 512) :
    broadcastTo S16x128x512 x hb (ix3 b h k) = x (ix3 (0 : Fin 1) h k) :=
  broadcastTo_apply x hb (ix3 b h k) (ix3 (0 : Fin 1) h k) fun a => match a with
    | ⟨0, _⟩ => by show 0 = if (1 : Nat) = 1 then 0 else b.val; rw [if_pos rfl]
    | ⟨1, _⟩ => by show h.val = if (128 : Nat) = 1 then 0 else h.val; rw [if_neg (by decide)]
    | ⟨2, _⟩ => by show k.val = if (512 : Nat) = 1 then 0 else k.val; rw [if_neg (by decide)]

/-- A row per sample [16, 1, 512] repeated along the middle axis reads, at (b, h, k), the row at (b, 0, k). -/
theorem alongMid_apply {α : Type} (x : S16x1x512.Idx → α) (hb : S16x1x512.Broadcasts S16x128x512)
    (b : Fin 16) (h : Fin 128) (k : Fin 512) :
    broadcastTo S16x128x512 x hb (ix3 b h k) = x (ix3 b (0 : Fin 1) k) :=
  broadcastTo_apply x hb (ix3 b h k) (ix3 b (0 : Fin 1) k) fun a => match a with
    | ⟨0, _⟩ => by show b.val = if (16 : Nat) = 1 then 0 else b.val; rw [if_neg (by decide)]
    | ⟨1, _⟩ => by show 0 = if (1 : Nat) = 1 then 0 else h.val; rw [if_pos rfl]
    | ⟨2, _⟩ => by show k.val = if (512 : Nat) = 1 then 0 else k.val; rw [if_neg (by decide)]

/-! ## The tall matrix product -/

/-- The [2048, 512] × [512, 1024] product into the zero matrix, at the extended reals, is entry by entry the finite sum
    Σ_k l[p, k] · r[k, d]: the contraction's one axis is re-indexed by k < 512. -/
theorem tallProduct_apply (l : FVec Ideal S2048x512 .bf16) (r : FVec Ideal S512x1024 .bf16) (p : Fin 2048) (d : Fin 1024) :
    matmul dot_S2048x512_S512x1024_S2048x1024_1_0_0_1_n_n none l r (constant (F := Ideal) S2048x1024 .f32 0x00000000#32) (ix2 p d)
      = ∑ k : Fin 512, l (ix2 p k) * r (ix2 k d) := by
  refine (Ideal.matmul_constant_zero_apply dot_S2048x512_S512x1024_S2048x1024_1_0_0_1_n_n none l r (ix2 p d)).trans ?_
  rw [← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p d) ((contrEquiv1 dot_S2048x512_S512x1024_S2048x1024_1_0_0_1_n_n 512 rfl rfl).symm k) = ix2 p k :=
    funext fun a => Fin.ext (by
      match a with
      | ⟨0, _⟩ =>
        show (dot_S2048x512_S512x1024_S2048x1024_1_0_0_1_n_n.lhsIdx (ix2 p d) _ 0).val = p.val
        unfold DotDims.lhsIdx
        rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
        rfl
      | ⟨1, _⟩ => exact (dot_S2048x512_S512x1024_S2048x1024_1_0_0_1_n_n.lhsIdx_val_of_single rfl (ix2 p d) _).trans hk)
  have er : dot_S2048x512_S512x1024_S2048x1024_1_0_0_1_n_n.rhsIdx (ix2 p d) ((contrEquiv1 dot_S2048x512_S512x1024_S2048x1024_1_0_0_1_n_n 512 rfl rfl).symm k) = ix2 k d :=
    funext fun a => Fin.ext (by
      match a with
      | ⟨0, _⟩ => exact (dot_S2048x512_S512x1024_S2048x1024_1_0_0_1_n_n.rhsIdx_val_of_single rfl (ix2 p d) _).trans hk
      | ⟨1, _⟩ =>
        show (dot_S2048x512_S512x1024_S2048x1024_1_0_0_1_n_n.rhsIdx (ix2 p d) _ 1).val = d.val
        unfold DotDims.rhsIdx
        rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
        rfl)
  rw [el, er]

/-! ## The body's stored value at (b, h, d) -/

/-- Entry (b, h, d) of what the body stores, from the point's four blocks: the three-way product's row (b, h) against
    column d of W1. Read outermost operation first: the result rows laid back out per sample; the tall product as a sum;
    in each term the product's rows stacked, the change of format the identity, and each broadcast factor read back to
    the block it came from. -/
theorem jacPayload_apply (s1 : Vec Ideal S16x512 .f32) (s2 : Vec Ideal S16x128 .f32) (w2 : Vec Ideal S128x512 .f32)
    (w1 : Vec Ideal S512x1024 .bf16) (b : Fin 16) (h : Fin 128) (d : Fin 1024) :
    k1_pay1 (F := Ideal) s1 s2 w2 w1 (ix3 b h d)
      = ∑ k : Fin 512, ((s2 (ix2 b h) * w2 (ix2 h k)) * s1 (ix2 b k)) * w1 (ix2 k d) := by
  unfold k1_pay1
  refine (unstackRows_apply _ shapeCasts_S2048x1024_S16x128x1024 b h d).trans ?_
  refine (tallProduct_apply _ _ (tallRow b h) d).trans ?_
  refine Finset.sum_congr rfl fun k _ => ?_
  refine congrArg₂ (· * ·) ?_ (congrFun (shapeCast_self w1 shapeCasts_S512x1024_S512x1024) (ix2 k d))
  refine (stackRows_apply _ shapeCasts_S16x128x512_S2048x512 b h k).trans ?_
  refine (truncf_apply _ bitsLt_bf16_f32 (ix3 b h k)).trans ?_
  refine (mulf_apply _ _ (ix3 b h k)).trans ?_
  refine congrArg₂ (· * ·) ((mulf_apply _ _ (ix3 b h k)).trans (congrArg₂ (· * ·) ?_ ?_)) ?_
  · exact (alongLast_apply _ broadcasts_S16x128x1_S16x128x512 b h k).trans
      ((addLastUnit_apply _ shapeCasts_S16x128_S16x128x1 b h (0 : Fin 1)).trans
        (congrFun (shapeCast_self s2 shapeCasts_S16x128_S16x128) (ix2 b h)))
  · exact (alongFirst_apply _ broadcasts_S1x128x512_S16x128x512 b h k).trans
      (shapeCast_ab_1ab_apply w2 shapeCasts_S128x512_S1x128x512 (0 : Fin 1) h k)
  · exact (alongMid_apply _ broadcasts_S16x1x512_S16x128x512 b h k).trans
      ((addMidUnit_apply _ shapeCasts_S16x512_S16x1x512 b (0 : Fin 1) k).trans
        (congrFun (shapeCast_self s1 shapeCasts_S16x512_S16x512) (ix2 b k)))

end Cert.KernelIdeal.JacValue

end
-- ==== Proof.JacArray.lean ====
/-
  The Jacobian region, from blocks to the array.

  The second region walks 32 grid points; point t holds the 16 samples 16·t … 16·t + 15. Its windows: the rows
  16·t … 16·t + 15 of σ'(c1) [512, 512] and of σ'(c2) [512, 128], the whole of W2 [128, 512] and of W1 [512, 1024], and as
  output the slab 16·t … 16·t + 15 of the [512, 128, 1024] array. What point t writes back is, entry (b, h, d) of its slab,
    Σ_k ((σ'(c2)[16·t + b, h] · W2[h, k]) · σ'(c1)[16·t + b, k]) · W1[k, d],
  that is, the slab of ONE whole-array function of the four arrays the region reads (the specification's `jac`). The 32
  slabs tile the array (sample n lies in slab n / 16), so after the region the array is that function.
-/
import proofs.«164810_j23785528885730_2_alg».proof.Proof.Spec
import proofs.«164810_j23785528885730_2_alg».proof.Proof.JacBlock
import proofs.«164810_j23785528885730_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.JacValue

open Cert.KernelIdeal Cert.KernelIdeal.Gen Idealize.ShloMosaic Idealize.ShloMosaic.ValueIdx Idealize.ShloMosaic.Pipeline
open Idealize.ShloMosaic.TcCoe Idealize.SL.Sem

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block index of every window at every grid point, decided over the 32 points: the two row windows and the output
    move with the point along the sample axis and sit at 0 on the others; the two weight windows never move. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-! ## Each input block, read where it lies in its array -/

/-- Row b of point t's block of σ'(c1) is row 16·t + b of the array. -/
theorem slope1Block_apply (c : Dev nD) (t : Fin cfg1.N) (b : Fin 16) (k : Fin 512) (n : Fin 512)
    (hn : n.val = 16 * t.val + b.val) :
    (iblk1 (F := Ideal) V c 0 t : S16x512.Idx → EReal) (ix2 b k) = (V c main_v0_2 : S512x512.Idx → EReal) (ix2 n k) := by
  obtain ⟨e0, e1, -⟩ := blockIndex t
  unfold iblk1
  show (V c main_v0_2 : S512x512.Idx → EReal) (((cfg1.win 0).blk t).view.emb (ix2 b k)) = _
  refine congrArg (V c main_v0_2 : S512x512.Idx → EReal) (funext fun a => Fin.ext ?_)
  match a with
  | ⟨0, _⟩ => show win1_0.index t (0 : Fin 2) * 16 + 1 * b.val = n.val; omega
  | ⟨1, _⟩ => show win1_0.index t (1 : Fin 2) * 512 + 1 * k.val = k.val; omega

/-- Row b of point t's block of σ'(c2) is row 16·t + b of the array. -/
theorem slope2Block_apply (c : Dev nD) (t : Fin cfg1.N) (b : Fin 16) (h : Fin 128) (n : Fin 512)
    (hn : n.val = 16 * t.val + b.val) :
    (iblk1 (F := Ideal) V c 1 t : S16x128.Idx → EReal) (ix2 b h) = (V c main_v0_3 : S512x128.Idx → EReal) (ix2 n h) := by
  obtain ⟨-, -, e0, e1, -⟩ := blockIndex t
  unfold iblk1
  show (V c main_v0_3 : S512x128.Idx → EReal) (((cfg1.win 1).blk t).view.emb (ix2 b h)) = _
  refine congrArg (V c main_v0_3 : S512x128.Idx → EReal) (funext fun a => Fin.ext ?_)
  match a with
  | ⟨0, _⟩ => show win1_1.index t (0 : Fin 2) * 16 + 1 * b.val = n.val; omega
  | ⟨1, _⟩ => show win1_1.index t (1 : Fin 2) * 128 + 1 * h.val = h.val; omega

/-- The block of W2 at any point is W2. -/
theorem weight2Block_apply (c : Dev nD) (t : Fin cfg1.N) (h : Fin 128) (k : Fin 512) :
    (iblk1 (F := Ideal) V c 2 t : S128x512.Idx → EReal) (ix2 h k) = (V c main_arg3 : S128x512.Idx → EReal) (ix2 h k) := by
  obtain ⟨-, -, -, -, e0, e1, -⟩ := blockIndex t
  unfold iblk1
  show (V c main_arg3 : S128x512.Idx → EReal) (((cfg1.win 2).blk t).view.emb (ix2 h k)) = _
  refine congrArg (V c main_arg3 : S128x512.Idx → EReal) (funext fun a => Fin.ext ?_)
  match a with
  | ⟨0, _⟩ => show win1_2.index t (0 : Fin 2) * 128 + 1 * h.val = h.val; omega
  | ⟨1, _⟩ => show win1_2.index t (1 : Fin 2) * 512 + 1 * k.val = k.val; omega

/-- The block of W1 at any point is W1. -/
theorem weight1Block_apply (c : Dev nD) (t : Fin cfg1.N) (k : Fin 512) (d : Fin 1024) :
    (iblk1 (F := Ideal) V c 3 t : S512x1024.Idx → EReal) (ix2 k d) = (V c main_v1 : S512x1024.Idx → EReal) (ix2 k d) := by
  obtain ⟨-, -, -, -, -, -, e0, e1, -⟩ := blockIndex t
  unfold iblk1
  show (V c main_v1 : S512x1024.Idx → EReal) (((cfg1.win 3).blk t).view.emb (ix2 k d)) = _
  refine congrArg (V c main_v1 : S512x1024.Idx → EReal) (funext fun a => Fin.ext ?_)
  match a with
  | ⟨0, _⟩ => show win1_3.index t (0 : Fin 2) * 512 + 1 * k.val = k.val; omega
  | ⟨1, _⟩ => show win1_3.index t (1 : Fin 2) * 1024 + 1 * d.val = d.val; omega

/-- Entry (b, h, d) of point t's output slab is entry (16·t + b, h, d) of the array. -/
theorem slab_emb (t : Fin cfg1.N) (b : Fin 16) (h : Fin 128) (d : Fin 1024) (n : Fin 512)
    (hn : n.val = 16 * t.val + b.val) :
    (((cfg1.win 4).blk t).view.emb (ix3 b h d) : S512x128x1024.Idx) = ix3 n h d := by
  obtain ⟨-, -, -, -, -, -, -, -, e0, e1, e2⟩ := blockIndex t
  funext a; apply Fin.ext
  match a with
  | ⟨0, _⟩ => show win1_4.index t (0 : Fin 3) * 16 + 1 * b.val = n.val; omega
  | ⟨1, _⟩ => show win1_4.index t (1 : Fin 3) * 128 + 1 * h.val = h.val; omega
  | ⟨2, _⟩ => show win1_4.index t (2 : Fin 3) * 1024 + 1 * d.val = d.val; omega

/-! ## What a point writes back -/

/-- Point t writes back slab t of the specification's Jacobian of the four arrays the region reads: the body's stored
    value at (b, h, d) is the sum over k, each factor read where its block lies in its array. -/
theorem jacFlushed_eq (c : Dev nD) (t : Fin cfg1.N) :
    (dat1 (F := Ideal) V c).flushed 4 t
      = ((cfg1.win 4).blk t).view.read (Elt Ideal)
          (Cert.Cae.jac (V c main_v0_3 : S512x128.Idx → EReal) (V c main_arg3 : S128x512.Idx → EReal)
            (V c main_v0_2 : S512x512.Idx → EReal) (V c main_v1 : S512x1024.Idx → EReal)) := by
  show (cfg1.win 4).cut (grid1.coords t) ((dat1 V c).after 4 t) = _
  rw [after1_4]
  unfold out1_4
  rw [View.canon_unit_zero zeros3]
  simp only [View.ld_unit_zero (S := S16x512) zeros2, View.ld_unit_zero (S := S16x128) zeros2,
    View.ld_unit_zero (S := S128x512) zeros2, View.ld_unit_zero (S := S512x1024) zeros2]
  funext j
  obtain ⟨b, h, d, rfl⟩ : ∃ (b : Fin 16) (h : Fin 128) (d : Fin 1024), j = ix3 b h d := ⟨j 0, j 1, j 2, eq_ix3 j⟩
  have ht : t.val < 32 := t.isLt.trans_eq N_1
  have hb : b.val < 16 := b.isLt
  have hn : 16 * t.val + b.val < 512 := by omega
  refine (jacPayload_apply (iblk1 V c 0 t) (iblk1 V c 1 t) (iblk1 V c 2 t) (iblk1 V c 3 t) b h d).trans ?_
  refine Eq.trans ?_ (congrArg (Cert.Cae.jac (V c main_v0_3 : S512x128.Idx → EReal) (V c main_arg3 : S128x512.Idx → EReal)
    (V c main_v0_2 : S512x512.Idx → EReal) (V c main_v1 : S512x1024.Idx → EReal)) (slab_emb t b h d ⟨16 * t.val + b.val, hn⟩ rfl)).symm
  rw [Cert.Cae.jac_apply]
  refine Finset.sum_congr rfl fun k _ => ?_
  exact congrArg₂ (· * ·)
    (congrArg₂ (· * ·)
      (congrArg₂ (· * ·) (slope2Block_apply V c t b h ⟨16 * t.val + b.val, hn⟩ rfl) (weight2Block_apply V c t h k))
      (slope1Block_apply V c t b k ⟨16 * t.val + b.val, hn⟩ rfl))
    (weight1Block_apply V c t k d)

/-! ## The slabs tile the array -/

/-- An index of the array is in point t's slab iff each coordinate is in the slab's range on its axis. -/
theorem mem_slab (t : Fin cfg1.N) (i : S512x128x1024.Idx) :
    i ∈ ((cfg1.win 4).blk t).view.set ↔ ∀ a : Fin 3, win1_4.index t a * S16x128x1024.size a ≤ (i a).val
      ∧ (i a).val < win1_4.index t a * S16x128x1024.size a + S16x128x1024.size a := by
  show i ∈ ((View.whole main_v2).slice (win1_4.rect t)).set ↔ _
  rw [View.set_slice_whole, Rect.mem_set_unit]
  exact Iff.rfl

/-- Every index lies in some point's slab: sample n is in slab n / 16, and every point writes its slab back. -/
theorem slabs_cover (i : S512x128x1024.Idx) :
    ∃ t : Fin cfg1.N, (cfg1.win 4).flush t = true ∧ i ∈ ((cfg1.win 4).blk t).view.set := by
  have h0 : (i 0).val < 512 := (i 0).isLt
  have h1 : (i 1).val < 128 := (i 1).isLt
  have h2 : (i 2).val < 1024 := (i 2).isLt
  have hN : grid1.N = 32 := N_1
  obtain ⟨t, ht⟩ : ∃ t : Fin cfg1.N, t.val = (i 0).val / 16 := ⟨⟨(i 0).val / 16, by show _ < grid1.N; omega⟩, rfl⟩
  obtain ⟨-, -, -, -, -, -, -, -, e0, e1, e2⟩ := blockIndex t
  refine ⟨t, flush1_4 t, ?_⟩
  rw [mem_slab]
  intro a
  match a with
  | ⟨0, _⟩ => show win1_4.index t (0 : Fin 3) * 16 ≤ (i 0).val ∧ (i 0).val < win1_4.index t (0 : Fin 3) * 16 + 16; omega
  | ⟨1, _⟩ => show win1_4.index t (1 : Fin 3) * 128 ≤ (i 1).val ∧ (i 1).val < win1_4.index t (1 : Fin 3) * 128 + 128; omega
  | ⟨2, _⟩ => show win1_4.index t (2 : Fin 3) * 1024 ≤ (i 2).val ∧ (i 2).val < win1_4.index t (2 : Fin 3) * 1024 + 1024; omega

/-! ## The array after the region -/

/-- After the region its output array is the specification's Jacobian of the four arrays the region reads. -/
theorem jacFinal (c : Dev nD) :
    (dat1 (F := Ideal) V c).arrAt 4 cfg1.N
      = Cert.Cae.jac (V c main_v0_3 : S512x128.Idx → EReal) (V c main_arg3 : S128x512.Idx → EReal)
          (V c main_v0_2 : S512x512.Idx → EReal) (V c main_v1 : S512x1024.Idx → EReal) :=
  (dat1 V c).arrAt_eq_of_cover 4 _ (fun t _ => jacFlushed_eq V c t) slabs_cover

end Cert.KernelIdeal.JacValue

end
-- ==== Proof.KernelValue.lean ====
/-
  The idealized kernel's three results as functions of its arguments.

  Walking the last boundary's contents back through @main: the reconstruction and the code are what the first region's
  write-backs leave, which is the specification's reconstruction and code of the launched arguments. The second region
  finds the two slope arrays as the first region left them (the specification's slopes), the second weight matrix as
  launched, and the first weight matrix converted to a narrower float format — a conversion that changes nothing over
  the extended reals —, so what its write-backs leave is the specification's Jacobian of the launched arguments.
-/
import proofs.«164810_j23785528885730_2_alg».proof.Proof.KernelRun
import proofs.«164810_j23785528885730_2_alg».proof.Proof.MlpArray
import proofs.«164810_j23785528885730_2_alg».proof.Proof.MlpArrayCode
import proofs.«164810_j23785528885730_2_alg».proof.Proof.MlpArraySlope
import proofs.«164810_j23785528885730_2_alg».proof.Proof.JacArray

set_option maxRecDepth 16384

noncomputable section

namespace Cert.KernelIdeal.RunValue

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The reconstruction's buffer ends at the specification's reconstruction of the launched arguments. -/
theorem recon_value (c : Dev nD) :
    W3 m ρ c (Proc.devRef .tc main_v0_0)
      = Cert.Cae.recon (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (W3_recon m ρ c).trans (MlpValue.recon_final (V0 m ρ) c)

/-- The code's buffer ends at the specification's code of the launched arguments. -/
theorem code_value (c : Dev nD) :
    W3 m ρ c (Proc.devRef .tc main_v0_1)
      = Cert.Cae.code (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (W3_code m ρ c).trans (MlpValue.code_final (V0 m ρ) c)

/-- Converting an array to a narrower float format changes no entry over the extended reals. -/
theorem narrow_eq (w : FVec Ideal S512x1024 .f32) :
    (truncf .bf16 w bitsLt_bf16_f32 : FVec Ideal S512x1024 .bf16) = w := rfl

/-- The Jacobian's buffer ends at the specification's Jacobian of the launched arguments. -/
theorem jac_value (c : Dev nD) :
    W3 m ρ c (Proc.devRef .tc main_v2)
      = Cert.Cae.jacobian (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [W3_jac, JacValue.jacFinal (V2 m ρ) c, V2_slope1, V2_slope2, V2_W2, V2_W1, narrow_eq,
    MlpValue.slope1_final (V0 m ρ) c, MlpValue.slope2_final (V0 m ρ) c]
  rfl

end Cert.KernelIdeal.RunValue

end
-- ==== Proof.RefIsSpecA.lean ====
/-
  The reference's first hidden layer is the specification's.

  The reference computes  1 / (1 + e^(-(x · W1ᵀ + b1)))  entry by entry, with W1ᵀ an explicit transpose, the bias
  broadcast along the rows, and the number one written as the float literal 1.0 (twice). Read at the entry (r, q) this is
  σ(Σ_k x[r, k] · W1[q, k] + b1[q]).
-/
import proofs.«164810_j23785528885730_2_alg».proof.Proof.Spec
import proofs.«164810_j23785528885730_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The quotient 1 / (1 + e^(-z)), with both ones written as the float literal 1.0, is the sigmoid of z. -/
theorem sigmoid_spelt (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div Cert.Cae.one (Cert.Cae.one + Ideal.exp (-z)) = Ideal.div 1 (1 + Ideal.exp (-z))
  rw [Cert.Cae.one_eq]

/-- c1: the reference's first sigmoid layer, entry by entry. -/
theorem hid1_eq (x0 x1 : (⟨S512x1024, .f32⟩ : BufTy).Contents (Elt Ideal)) (x2 : (⟨S512, .f32⟩ : BufTy).Contents (Elt Ideal)) :
    val_main_v10 (F := Ideal) x0 x1 x2 = Cert.Cae.hid1 x0 x1 x2 := by
  funext i
  obtain ⟨r, q, rfl⟩ : ∃ (r : Fin 512) (q : Fin 512), i = ix2 r q := ⟨i 0, i 1, eq_ix2 i⟩
  rw [val_main_v10_apply, val_main_v9_apply, val_main_cst_0_apply, val_main_v8_apply, val_main_v7_apply,
    val_main_cst_apply, val_main_v6_apply, val_main_v5_apply, sigmoid_spelt, val_main_v4_apply, val_main_v3_apply,
    val_main_v2_apply, val_main_v1_apply]
  have e1 : ∀ k : Fin 1024, lidx_main_v1 (ix2 r q) k = ix2 r k := fun k => funext fun a => Fin.ext (by
    match a with | ⟨0, _⟩ => rfl | ⟨1, _⟩ => rfl)
  have e2 : ∀ k : Fin 1024, idx_main_v0 (ridx_main_v1 (ix2 r q) k) = ix2 q k := fun k => funext fun a => Fin.ext (by
    match a with | ⟨0, _⟩ => rfl | ⟨1, _⟩ => rfl)
  have e3 : idx_main_v2 (idx_main_v3 (ix2 r q)) = ix1 q := funext fun a => Fin.ext (by
    match a with | ⟨0, _⟩ => rfl)
  simp only [val_main_v0_apply, e1, e2, e3]
  rfl

/-- σ'(c1) = c1 · (1 - c1), with the one written as the float literal. -/
theorem slope1_eq (x0 x1 : (⟨S512x1024, .f32⟩ : BufTy).Contents (Elt Ideal)) (x2 : (⟨S512, .f32⟩ : BufTy).Contents (Elt Ideal)) :
    val_main_v38 (F := Ideal) x0 x1 x2 = Cert.Cae.slope1 x0 x1 x2 := by
  funext i
  rw [val_main_v38_apply, val_main_v37_apply, val_main_v36_apply, val_main_cst_5_apply, hid1_eq]
  rfl

end Cert.ReferenceIdeal.RefValue

end
-- ==== Proof.RefIsSpecB.lean ====
/-
  The reference's code layer is the specification's.

  The second layer is  1 / (1 + e^(-(c1 · W2ᵀ + b2)))  over the first layer's result c1; at the entry (r, q) it is
  σ(Σ_k c1[r, k] · W2[q, k] + b2[q]). Its slope is c2 · (1 - c2).
-/
import proofs.«164810_j23785528885730_2_alg».proof.Proof.Spec
import proofs.«164810_j23785528885730_2_alg».proof.Proof.RefIsSpecA
import proofs.«164810_j23785528885730_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- c2, the code: the reference's second sigmoid layer, entry by entry. -/
theorem code_eq (x0 x1 : (⟨S512x1024, .f32⟩ : BufTy).Contents (Elt Ideal)) (x2 : (⟨S512, .f32⟩ : BufTy).Contents (Elt Ideal)) (x3 : (⟨S128x512, .f32⟩ : BufTy).Contents (Elt Ideal)) (x4 : (⟨S128, .f32⟩ : BufTy).Contents (Elt Ideal)) :
    val_main_v21 (F := Ideal) x0 x1 x2 x3 x4 = Cert.Cae.code x0 x1 x2 x3 x4 := by
  funext i
  obtain ⟨r, q, rfl⟩ : ∃ (r : Fin 512) (q : Fin 128), i = ix2 r q := ⟨i 0, i 1, eq_ix2 i⟩
  rw [val_main_v21_apply, val_main_v20_apply, val_main_cst_2_apply, val_main_v19_apply, val_main_v18_apply,
    val_main_cst_1_apply, val_main_v17_apply, val_main_v16_apply, sigmoid_spelt, val_main_v15_apply, val_main_v14_apply,
    val_main_v13_apply, val_main_v12_apply, hid1_eq]
  have e1 : ∀ k : Fin 512, lidx_main_v12 (ix2 r q) k = ix2 r k := fun k => funext fun a => Fin.ext (by
    match a with | ⟨0, _⟩ => rfl | ⟨1, _⟩ => rfl)
  have e2 : ∀ k : Fin 512, idx_main_v11 (ridx_main_v12 (ix2 r q) k) = ix2 q k := fun k => funext fun a => Fin.ext (by
    match a with | ⟨0, _⟩ => rfl | ⟨1, _⟩ => rfl)
  have e3 : idx_main_v13 (idx_main_v14 (ix2 r q)) = ix1 q := funext fun a => Fin.ext (by
    match a with | ⟨0, _⟩ => rfl)
  simp only [val_main_v11_apply, e1, e2, e3]
  rfl

/-- σ'(c2) = c2 · (1 - c2), with the one written as the float literal. -/
theorem slope2_eq (x0 x1 : (⟨S512x1024, .f32⟩ : BufTy).Contents (Elt Ideal)) (x2 : (⟨S512, .f32⟩ : BufTy).Contents (Elt Ideal)) (x3 : (⟨S128x512, .f32⟩ : BufTy).Contents (Elt Ideal)) (x4 : (⟨S128, .f32⟩ : BufTy).Contents (Elt Ideal)) :
    val_main_v41 (F := Ideal) x0 x1 x2 x3 x4 = Cert.Cae.slope2 x0 x1 x2 x3 x4 := by
  funext i
  rw [val_main_v41_apply, val_main_v40_apply, val_main_v39_apply, val_main_cst_6_apply, code_eq]
  rfl

end Cert.ReferenceIdeal.RefValue

end
-- ==== Proof.RefIsSpecC.lean ====
/-
  The reference's decoder is the specification's.

  The first decoder layer is  1 / (1 + e^(-(c2 · W2 + b3)))  over the code c2, now contracting W2's FIRST axis:
  entry (r, q) is σ(Σ_k c2[r, k] · W2[k, q] + b3[q]). The reconstruction is the affine map c3 · W1 + b_r:
  entry (r, q) is Σ_k c3[r, k] · W1[k, q] + b_r[q].
-/
import proofs.«164810_j23785528885730_2_alg».proof.Proof.Spec
import proofs.«164810_j23785528885730_2_alg».proof.Proof.RefIsSpecB
import proofs.«164810_j23785528885730_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- c3: the reference's first decoder layer, entry by entry. -/
theorem hid3_eq (x0 x1 : (⟨S512x1024, .f32⟩ : BufTy).Contents (Elt Ideal)) (x2 : (⟨S512, .f32⟩ : BufTy).Contents (Elt Ideal)) (x3 : (⟨S128x512, .f32⟩ : BufTy).Contents (Elt Ideal)) (x4 : (⟨S128, .f32⟩ : BufTy).Contents (Elt Ideal)) (x5 : (⟨S512, .f32⟩ : BufTy).Contents (Elt Ideal)) :
    val_main_v31 (F := Ideal) x0 x1 x2 x3 x4 x5 = Cert.Cae.hid3 x0 x1 x2 x3 x4 x5 := by
  funext i
  obtain ⟨r, q, rfl⟩ : ∃ (r : Fin 512) (q : Fin 512), i = ix2 r q := ⟨i 0, i 1, eq_ix2 i⟩
  rw [val_main_v31_apply, val_main_v30_apply, val_main_cst_4_apply, val_main_v29_apply, val_main_v28_apply,
    val_main_cst_3_apply, val_main_v27_apply, val_main_v26_apply, sigmoid_spelt, val_main_v25_apply, val_main_v24_apply,
    val_main_v23_apply, val_main_v22_apply, code_eq]
  have e1 : ∀ k : Fin 128, lidx_main_v22 (ix2 r q) k = ix2 r k := fun k => funext fun a => Fin.ext (by
    match a with | ⟨0, _⟩ => rfl | ⟨1, _⟩ => rfl)
  have e2 : ∀ k : Fin 128, ridx_main_v22 (ix2 r q) k = ix2 k q := fun k => funext fun a => Fin.ext (by
    match a with | ⟨0, _⟩ => rfl | ⟨1, _⟩ => rfl)
  have e3 : idx_main_v23 (idx_main_v24 (ix2 r q)) = ix1 q := funext fun a => Fin.ext (by
    match a with | ⟨0, _⟩ => rfl)
  simp only [e1, e2, e3]
  rfl

/-- The reconstruction: the reference's last affine layer, entry by entry. -/
theorem recon_eq (x0 x1 : (⟨S512x1024, .f32⟩ : BufTy).Contents (Elt Ideal)) (x2 : (⟨S512, .f32⟩ : BufTy).Contents (Elt Ideal)) (x3 : (⟨S128x512, .f32⟩ : BufTy).Contents (Elt Ideal)) (x4 : (⟨S128, .f32⟩ : BufTy).Contents (Elt Ideal)) (x5 : (⟨S512, .f32⟩ : BufTy).Contents (Elt Ideal)) (x6 : (⟨S1024, .f32⟩ : BufTy).Contents (Elt Ideal)) :
    val_main_v35 (F := Ideal) x0 x1 x2 x3 x4 x5 x6 = Cert.Cae.recon x0 x1 x2 x3 x4 x5 x6 := by
  funext i
  obtain ⟨r, q, rfl⟩ : ∃ (r : Fin 512) (q : Fin 1024), i = ix2 r q := ⟨i 0, i 1, eq_ix2 i⟩
  rw [val_main_v35_apply, val_main_v34_apply, val_main_v33_apply, val_main_v32_apply, hid3_eq]
  have e1 : ∀ k : Fin 512, lidx_main_v32 (ix2 r q) k = ix2 r k := fun k => funext fun a => Fin.ext (by
    match a with | ⟨0, _⟩ => rfl | ⟨1, _⟩ => rfl)
  have e2 : ∀ k : Fin 512, ridx_main_v32 (ix2 r q) k = ix2 k q := fun k => funext fun a => Fin.ext (by
    match a with | ⟨0, _⟩ => rfl | ⟨1, _⟩ => rfl)
  have e3 : idx_main_v33 (idx_main_v34 (ix2 r q)) = ix1 q := funext fun a => Fin.ext (by
    match a with | ⟨0, _⟩ => rfl)
  simp only [e1, e2, e3]
  rfl

end Cert.ReferenceIdeal.RefValue

end
-- ==== Proof.RefIsSpecD.lean ====
/-
  The reference's Jacobian is the specification's.

  The reference forms the three-factor product M[b, h, k] = (σ'(c2)[b, h] · W2[h, k]) · σ'(c1)[b, k] by broadcasting
  each factor to the extents [512, 128, 512] (a broadcast only repeats entries: read at (b, h, k) it returns the
  operand's entry at the coordinates it kept) and multiplying entry by entry, then contracts k against W1:
  Jac[b, h, d] = Σ_k M[b, h, k] · W1[k, d].
-/
import proofs.«164810_j23785528885730_2_alg».proof.Proof.Spec
import proofs.«164810_j23785528885730_2_alg».proof.Proof.RefIsSpecB
import proofs.«164810_j23785528885730_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The three-factor product at the entry (b, h, k). -/
theorem factor3_apply (x0 x1 : (⟨S512x1024, .f32⟩ : BufTy).Contents (Elt Ideal)) (x2 : (⟨S512, .f32⟩ : BufTy).Contents (Elt Ideal)) (x3 : (⟨S128x512, .f32⟩ : BufTy).Contents (Elt Ideal)) (x4 : (⟨S128, .f32⟩ : BufTy).Contents (Elt Ideal)) (b : Fin 512) (h : Fin 128) (k : Fin 512) :
    val_main_v49 (F := Ideal) x0 x1 x2 x3 x4 (ix3 b h k)
      = (Cert.Cae.slope2 x0 x1 x2 x3 x4 (ix2 b h) * x3 (ix2 h k)) * Cert.Cae.slope1 x0 x1 x2 (ix2 b k) := by
  rw [val_main_v49_apply, val_main_v48_apply, val_main_v47_apply, slope1_eq, val_main_v46_apply, val_main_v45_apply,
    val_main_v43_apply, val_main_v44_apply, val_main_v42_apply, slope2_eq]
  have e1 : idx_main_v47 (idx_main_v48 (ix3 b h k)) = ix2 b k := funext fun a => Fin.ext (by
    match a with | ⟨0, _⟩ => rfl | ⟨1, _⟩ => rfl)
  have e2 : idx_main_v43 (idx_main_v45 (ix3 b h k)) = ix2 h k := funext fun a => Fin.ext (by
    match a with | ⟨0, _⟩ => rfl | ⟨1, _⟩ => rfl)
  have e3 : idx_main_v42 (idx_main_v44 (ix3 b h k)) = ix2 b h := funext fun a => Fin.ext (by
    match a with | ⟨0, _⟩ => rfl | ⟨1, _⟩ => rfl)
  rw [e1, e2, e3]
  rfl

/-- The per-sample Jacobian of the code: the reference's last contraction, entry by entry. -/
theorem jacobian_eq (x0 x1 : (⟨S512x1024, .f32⟩ : BufTy).Contents (Elt Ideal)) (x2 : (⟨S512, .f32⟩ : BufTy).Contents (Elt Ideal)) (x3 : (⟨S128x512, .f32⟩ : BufTy).Contents (Elt Ideal)) (x4 : (⟨S128, .f32⟩ : BufTy).Contents (Elt Ideal)) :
    val_main_v50 (F := Ideal) x0 x1 x2 x3 x4 = Cert.Cae.jacobian x0 x1 x2 x3 x4 := by
  funext i
  obtain ⟨b, h, d, rfl⟩ : ∃ (b : Fin 512) (h : Fin 128) (d : Fin 1024), i = ix3 b h d := ⟨i 0, i 1, i 2, eq_ix3 i⟩
  rw [val_main_v50_apply]
  have e1 : ∀ k : Fin 512, lidx_main_v50 (ix3 b h d) k = ix3 b h k := fun k => funext fun a => Fin.ext (by
    match a with | ⟨0, _⟩ => rfl | ⟨1, _⟩ => rfl | ⟨2, _⟩ => rfl)
  have e2 : ∀ k : Fin 512, ridx_main_v50 (ix3 b h d) k = ix2 k d := fun k => funext fun a => Fin.ext (by
    match a with | ⟨0, _⟩ => rfl | ⟨1, _⟩ => rfl)
  simp only [e1, e2, factor3_apply]
  rfl

end Cert.ReferenceIdeal.RefValue

end
-- ==== Proof.RefIsSpec.lean ====
/-
  The reference's three results are the specification.

  The stages are proved in program order, each over the previous one:
    the first hidden layer c1 and its slope σ'(c1)          (RefIsSpecA: hid1_eq, slope1_eq)
    the code c2 and its slope σ'(c2)                         (RefIsSpecB: code_eq, slope2_eq)
    the decoder layer c3 and the reconstruction              (RefIsSpecC: hid3_eq, recon_eq)
    the three-factor product and the Jacobian                (RefIsSpecD: factor3_apply, jacobian_eq)
  This module only gathers them.
-/
import proofs.«164810_j23785528885730_2_alg».proof.Proof.RefIsSpecC
import proofs.«164810_j23785528885730_2_alg».proof.Proof.RefIsSpecD
-- ==== Proof.lean ====
/-
  Two programs compute a two-layer sigmoid auto-encoder with tied weights — the code c2 = σ(σ(x·W1ᵀ + b1)·W2ᵀ + b2), the
  reconstruction σ(c2·W2 + b3)·W1 + b_r — and the per-sample Jacobian of the code,
  Jac[b] = diag(σ'(c2[b])) · W2 · diag(σ'(c1[b])) · W1. One is a jnp program; the other tiles the batch: a first
  pipelined region computes the layers 128 samples at a time, a second one the Jacobian 16 samples at a time with its
  operands converted to a narrower float format and the [16, 128, 512] product flattened to a [2048, 512] matrix.
  Over the extended reals (every float an exact number, a change of format the identity) both compute the SAME
  functions of the arguments, entry by entry: every matrix product is a finite sum of products, the network acts row by
  row so tiling the batch changes nothing, flattening only renames indices, and the sigmoid written as one operation
  is the quotient 1 / (1 + e^(-z)) the other program spells out. No law used needs the inputs finite.

  The modules: Spec (the functions), SpecRows (they act row by row), MlpBlock / MlpArray* (the first region: one tile,
  then the arrays), JacBlock / JacArray (the second region), KernelRun / KernelValue (the kernel's run with its results
  named, and their values), RefIsSpec* (the reference's results are the same functions). Here: the five claims.
-/
import proofs.«164810_j23785528885730_2_alg».proof.Defs
import proofs.«164810_j23785528885730_2_alg».proof.Proof.Gen.Kernel
import proofs.«164810_j23785528885730_2_alg».proof.Proof.Gen.Kernel.Frame
import proofs.«164810_j23785528885730_2_alg».proof.Proof.Gen.KernelIdeal
import proofs.«164810_j23785528885730_2_alg».proof.Proof.Gen.KernelIdeal.Frame
import proofs.«164810_j23785528885730_2_alg».proof.Proof.Gen.ReferenceIdeal
import proofs.«164810_j23785528885730_2_alg».proof.Proof.Gen.Pre_finite_inputs
import proofs.«164810_j23785528885730_2_alg».proof.Proof.Gen.ReferenceIdeal.Run
import proofs.«164810_j23785528885730_2_alg».proof.Proof.Gen.ReferenceIdeal.Read
import proofs.«164810_j23785528885730_2_alg».proof.Proof.KernelValue
import proofs.«164810_j23785528885730_2_alg».proof.Proof.RefIsSpec
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference runs and leaves its arguments as launched: its run, with the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- The idealization rewrote no operation of the kernel. -/
theorem preserves : Cert.preserves_Kernel_KernelIdeal := trivial

/-- From memories agreeing on the arguments both idealized programs end with the reconstruction, the code and the
    Jacobian of the specification — the kernel by its two regions' write-backs, the reference by its run read one
    operation at a time. -/
theorem algebraic : Cert.algebraic_KernelIdeal_ReferenceIdeal := by
  intro m ρ m' ρ' _ hagree
  refine ⟨fun c => Cert.Cae.recon (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
    fun c => Cert.Cae.code (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
    fun c => Cert.Cae.jacobian (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)), ?_, ?_⟩
  · exact (θ_run Cert.KernelIdeal.defs _ _).mono (fun r h c =>
      ⟨(h c).1.trans (Cert.KernelIdeal.RunValue.recon_value m ρ c),
       (h c).2.1.trans (Cert.KernelIdeal.RunValue.code_value m ρ c),
       (h c).2.2.1.trans (Cert.KernelIdeal.RunValue.jac_value m ρ c),
       (h c).2.2.2⟩)
      (Cert.KernelIdeal.RunValue.run_named (F := Ideal) m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v35_eq, Cert.ReferenceIdeal.RefValue.recon_eq,
        (hagree c).1, (hagree c).2.1, (hagree c).2.2.1, (hagree c).2.2.2.1, (hagree c).2.2.2.2.1,
        (hagree c).2.2.2.2.2.1, (hagree c).2.2.2.2.2.2]
    · rw [(h c).2.1, Cert.ReferenceIdeal.Read.val_main_v21_eq, Cert.ReferenceIdeal.RefValue.code_eq,
        (hagree c).1, (hagree c).2.1, (hagree c).2.2.1, (hagree c).2.2.2.1, (hagree c).2.2.2.2.1]
    · rw [(h c).2.2.1, Cert.ReferenceIdeal.Read.val_main_v50_eq, Cert.ReferenceIdeal.RefValue.jacobian_eq,
        (hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
